-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x64 : S_.BroadcastsInDim S10000x64 (![] : Fin 0 → Fin S10000x64.rank)
  reducesTo_S10000x64_S_d0_1 : S10000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S96x7 : S_.BroadcastsInDim S96x7 (![] : Fin 0 → Fin S96x7.rank)
  reducesTo_S96x7_S_d0_1 : S96x7.ReducesTo [0, 1] S_
  bcast_S_S7 : S_.BroadcastsInDim S7 (![] : Fin 0 → Fin S7.rank)
  reducesTo_S7_S_d0 : S7.ReducesTo [0] S_
  bcast_S_S192x7 : S_.BroadcastsInDim S192x7 (![] : Fin 0 → Fin S192x7.rank)
  reducesTo_S192x7_S_d0_1 : S192x7.ReducesTo [0, 1] S_
  reducesTo_S_S_d : S_.ReducesTo [] S_

variable [Facts]

def fn_part3 {F : FTy → Type} [FloatOps F] (main_arg11 : FVec F S7 .f32) (main_arg12 : FVec F S_ .f32) (main_arg13 : FVec F S_ .f32) (main_v48 : IVec S_ 1) (main_v49 : FVec F S192x7 .f32) (main_v50 : FVec F S192x7 .f32) : IVec S_ 1 :=
  let main_v51 : IVec S192x7 1 := cmpf .olt main_v49 main_v50
  let main_c_19 : IVec S_ 1 := constantI S_ 1 1#1
  let main_v52 : IVec S_ 1 := (fun x v => Host.reduce IntOp.andi x v reducesTo_S192x7_S_d0_1 h_S_) main_v51 main_c_19
  let main_v53 : IVec S_ 1 := andi main_v48 main_v52
  let main_v54 : FVec F S7 .f32 := Host.absf main_arg11
  let main_cst_20 : FVec F S_ .f32 := constant S_ .f32 0x7F800000#32
  let main_v55 : FVec F S7 .f32 := broadcastInDim S7 ![] bcast_S_S7 main_cst_20
  let main_v56 : IVec S7 1 := cmpf .olt main_v54 main_v55
  let main_c_21 : IVec S_ 1 := constantI S_ 1 1#1
  let main_v57 : IVec S_ 1 := (fun x v => Host.reduce IntOp.andi x v reducesTo_S7_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  let main_v63 : FVec F S_ .f32 := Host.absf main_arg13
  let main_cst_24 : FVec F S_ .f32 := constant S_ .f32 0x7F800000#32
  let main_v64 : IVec S_ 1 := cmpf .olt main_v63 main_cst_24
  let main_c_25 : IVec S_ 1 := constantI S_ 1 1#1
  let main_v65 : IVec S_ 1 := (fun x v => Host.reduce IntOp.andi x v reducesTo_S_S_d h_S_) main_v64 main_c_25
  let main_v66 : IVec S_ 1 := andi main_v62 main_v65
  main_v66

def fn_part2 {F : FTy → Type} [FloatOps F] (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) (main_v33 : IVec S_ 1) : IVec S_ 1 :=
  let main_v34 : FVec F S96x7 .f32 := Host.absf main_arg7
  let main_cst_12 : FVec F S_ .f32 := constant S_ .f32 0x7F800000#32
  let main_v35 : FVec F S96x7 .f32 := broadcastInDim S96x7 ![] bcast_S_S96x7 main_cst_12
  let main_v36 : IVec S96x7 1 := cmpf .olt main_v34 main_v35
  let main_c_13 : IVec S_ 1 := constantI S_ 1 1#1
  let main_v37 : IVec S_ 1 := (fun x v => Host.reduce IntOp.andi x v reducesTo_S96x7_S_d0_1 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_v44 : FVec F S192x7 .f32 := Host.absf main_arg9
  let main_cst_16 : FVec F S_ .f32 := constant S_ .f32 0x7F800000#32
  let main_v45 : FVec F S192x7 .f32 := broadcastInDim S192x7 ![] bcast_S_S192x7 main_cst_16
  let main_v46 : IVec S192x7 1 := cmpf .olt main_v44 main_v45
  let main_c_17 : IVec S_ 1 := constantI S_ 1 1#1
  let main_v47 : IVec S_ 1 := (fun x v => Host.reduce IntOp.andi x v reducesTo_S192x7_S_d0_1 h_S_) main_v46 main_c_17
  let main_v48 : IVec S_ 1 := andi main_v43 main_v47
  let main_v49 : FVec F S192x7 .f32 := Host.absf main_arg10
  let main_cst_18 : FVec F S_ .f32 := constant S_ .f32 0x7F800000#32
  let main_v50 : FVec F S192x7 .f32 := broadcastInDim S192x7 ![] bcast_S_S192x7 main_cst_18
  fn_part3 (F := F) main_arg11 main_arg12 main_arg13 main_v48 main_v49 main_v50

def fn_part1 {F : FTy → Type} [FloatOps F] (main_arg4 : FVec F S128x32 .f32) (main_arg5 : FVec F S32 .f32) (main_arg6 : FVec F S96x7 .f32) (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x7 .f32 := Host.absf main_arg6
  let main_cst_10 : FVec F S_ .f32 := constant S_ .f32 0x7F800000#32
  let main_v30 : FVec F S96x7 .f32 := broadcastInDim S96x7 ![] bcast_S_S96x7 main_cst_10
  let main_v31 : IVec S96x7 1 := cmpf .olt main_v29 main_v30
  let main_c_11 : IVec S_ 1 := constantI S_ 1 1#1
  let main_v32 : IVec S_ 1 := (fun x v => Host.reduce IntOp.andi x v reducesTo_S96x7_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x64 .f32) (main_arg3 : FVec F S128x32 .f32) (main_arg4 : FVec F S128x32 .f32) (main_arg5 : FVec F S32 .f32) (main_arg6 : FVec F S96x7 .f32) (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩
abbrev S10000x192 : Shape := ⟨2, ![10000, 192]⟩
abbrev S10000x32 : Shape := ⟨2, ![10000, 32]⟩
abbrev S10000x7 : Shape := ⟨2, ![10000, 7]⟩
abbrev S10000x39 : Shape := ⟨2, ![10000, 39]⟩
abbrev S1x32 : Shape := ⟨2, ![1, 32]⟩
abbrev S1x7 : Shape := ⟨2, ![1, 7]⟩
abbrev S32x7 : Shape := ⟨2, ![32, 7]⟩
abbrev S64x7 : Shape := ⟨2, ![64, 7]⟩
abbrev S10000x21 : Shape := ⟨2, ![10000, 21]⟩
abbrev S200x10000 : Shape := ⟨2, ![200, 10000]⟩
abbrev S200x39 : Shape := ⟨2, ![200, 39]⟩
abbrev S200x64 : Shape := ⟨2, ![200, 64]⟩
abbrev S200x21 : Shape := ⟨2, ![200, 21]⟩
abbrev S200x32 : Shape := ⟨2, ![200, 32]⟩
abbrev S200x7 : Shape := ⟨2, ![200, 7]⟩
abbrev S1x1 : Shape := ⟨2, ![1, 1]⟩
abbrev S200 : Shape := ⟨1, ![200]⟩
abbrev S200x1 : Shape := ⟨2, ![200, 1]⟩

abbrev nBuf : Space → Nat
  | .hbm => 39
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S96x7, .f32⟩
  | .hbm, ⟨7, _⟩ => ⟨S96x7, .f32⟩
  | .hbm, ⟨8, _⟩ => ⟨S7, .f32⟩
  | .hbm, ⟨9, _⟩ => ⟨S192x7, .f32⟩
  | .hbm, ⟨10, _⟩ => ⟨S192x7, .f32⟩
  | .hbm, ⟨11, _⟩ => ⟨S7, .f32⟩
  | .hbm, ⟨12, _⟩ => ⟨S_, .f32⟩
  | .hbm, ⟨13, _⟩ => ⟨S_, .f32⟩
  | .hbm, ⟨14, _⟩ => ⟨S10000x192, .f32⟩
  | .hbm, ⟨15, _⟩ => ⟨S10000x32, .f32⟩
  | .hbm, ⟨16, _⟩ => ⟨S10000x7, .f32⟩
  | .hbm, ⟨17, _⟩ => ⟨S10000x39, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x7, .f32⟩
  | .hbm, ⟨23, _⟩ => ⟨S1x7, .f32⟩
  | .hbm, ⟨24, _⟩ => ⟨S10000x7, .f32⟩
  | .hbm, ⟨25, _⟩ => ⟨S10000x7, .f32⟩
  | .hbm, ⟨26, _⟩ => ⟨S10000x39, .f32⟩
  | .hbm, ⟨27, _⟩ => ⟨S32x7, .f32⟩
  | .hbm, ⟨28, _⟩ => ⟨S64x7, .f32⟩
  | .hbm, ⟨29, _⟩ => ⟨S32x7, .f32⟩
  | .hbm, ⟨30, _⟩ => ⟨S64x7, .f32⟩
  | .hbm, ⟨31, _⟩ => ⟨S1x7, .f32⟩
  | .hbm, ⟨32, _⟩ => ⟨S10000x21, .f32⟩
  | .hbm, ⟨33, _⟩ => ⟨S10000x7, .f32⟩
  | .hbm, ⟨34, _⟩ => ⟨S10000x7, .f32⟩
  | .hbm, ⟨35, _⟩ => ⟨S10000x7, .f32⟩
  | .hbm, ⟨36, _⟩ => ⟨S1x1, .f32⟩
  | .hbm, ⟨37, _⟩ => ⟨S1x1, .f32⟩
  | .hbm, ⟨38, _⟩ => ⟨S10000x7, .f32⟩
  | .local _ .vmem, ⟨0, _⟩ => ⟨S200x10000, .f32⟩
  | .local _ .vmem, ⟨1, _⟩ => ⟨S200x10000, .f32⟩
  | .local _ .vmem, ⟨2, _⟩ => ⟨S10000x39, .f32⟩
  | .local _ .vmem, ⟨3, _⟩ => ⟨S200x39, .f32⟩
  | .local _ .vmem, ⟨4, _⟩ => ⟨S200x39, .f32⟩
  | .local _ .vmem, ⟨5, _⟩ => ⟨S200x64, .f32⟩
  | .local _ .vmem, ⟨6, _⟩ => ⟨S200x64, .f32⟩
  | .local _ .vmem, ⟨7, _⟩ => ⟨S32x7, .f32⟩
  | .local _ .vmem, ⟨8, _⟩ => ⟨S64x7, .f32⟩
  | .local _ .vmem, ⟨9, _⟩ => ⟨S32x7, .f32⟩
  | .local _ .vmem, ⟨10, _⟩ => ⟨S64x7, .f32⟩
  | .local _ .vmem, ⟨11, _⟩ => ⟨S1x7, .f32⟩
  | .local _ .vmem, ⟨12, _⟩ => ⟨S200x21, .f32⟩
  | .local _ .vmem, ⟨13, _⟩ => ⟨S200x21, .f32⟩
  | .local _ .vmem, ⟨14, _⟩ => ⟨S200x10000, .f32⟩
  | .local _ .vmem, ⟨15, _⟩ => ⟨S200x10000, .f32⟩
  | .local _ .vmem, ⟨16, _⟩ => ⟨S10000x7, .f32⟩
  | .local _ .vmem, ⟨17, _⟩ => ⟨S200x7, .f32⟩
  | .local _ .vmem, ⟨18, _⟩ => ⟨S200x7, .f32⟩
  | .local _ .vmem, ⟨19, _⟩ => ⟨S200x7, .f32⟩
  | .local _ .vmem, ⟨20, _⟩ => ⟨S200x7, .f32⟩
  | .local _ .vmem, ⟨21, _⟩ => ⟨S1x1, .f32⟩
  | .local _ .vmem, ⟨22, _⟩ => ⟨S1x1, .f32⟩
  | .local _ .vmem, ⟨23, _⟩ => ⟨S200x7, .f32⟩
  | .local _ .vmem, ⟨24, _⟩ => ⟨S200x7, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x39 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x39 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x7 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S200x21 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x7 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S10000x128_S10000x64_S10000x192_d1 : Shape.Concatenates [S10000x128, S10000x64] S10000x192 1
  concatenates_S10000x32_S10000x7_S10000x39_d1 : Shape.Concatenates [S10000x32, S10000x7] S10000x39 1
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  slices_S96x7_S32x7_0_0 : S96x7.Slices ![0, 0] S32x7
  slices_S96x7_S64x7_32_0 : S96x7.Slices ![32, 0] S64x7
  shapeCasts_S7_S1x7 : S7.ShapeCasts S1x7
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x39_S10000x39_0_0 : ∀ a, (![0, 0] : Fin 2 → Nat) a + S10000x39.size a ≤ S10000x39.size a
  h_S10000x39 : 0 < S10000x39.numel
  shapeCasts_S10000x39_S10000x39 : S10000x39.ShapeCasts S10000x39
  inb_S200x39_S200x39_0_0 : ∀ a, (![0, 0] : Fin 2 → Nat) a + S200x39.size a ≤ S200x39.size a
  h_S200x39 : 0 < S200x39.numel
  shapeCasts_S200x39_S200x39 : S200x39.ShapeCasts S200x39
  slices_S200x39_o0_0_S200x32 : S200x39.Slices ![0, 0] S200x32
  slices_S200x39_o0_32_S200x7 : S200x39.Slices ![0, 32] S200x7
  inb_S200x64_S200x64_0_0 : ∀ a, (![0, 0] : Fin 2 → Nat) a + S200x64.size a ≤ S200x64.size a
  h_S200x64 : 0 < S200x64.numel
  inb_S32x7_S32x7_0_0 : ∀ a, (![0, 0] : Fin 2 → Nat) a + S32x7.size a ≤ S32x7.size a
  h_S32x7 : 0 < S32x7.numel
  shapeCasts_S32x7_S32x7 : S32x7.ShapeCasts S32x7
  inb_S64x7_S64x7_0_0 : ∀ a, (![0, 0] : Fin 2 → Nat) a + S64x7.size a ≤ S64x7.size a
  h_S64x7 : 0 < S64x7.numel
  shapeCasts_S64x7_S64x7 : S64x7.ShapeCasts S64x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S200x7 : S1x7.Broadcasts S200x7
  inb_S200x21_S200x7_0_0 : ∀ a, (![0, 0] : Fin 2 → Nat) a + S200x7.size a ≤ S200x21.size a
  h_S200x7 : 0 < S200x7.numel
  inb_S200x21_S200x7_0_7 : ∀ a, (![0, 7] : Fin 2 → Nat) a + S200x7.size a ≤ S200x21.size a
  inb_S200x21_S200x7_0_14 : ∀ a, (![0, 14] : Fin 2 → Nat) a + S200x7.size a ≤ S200x21.size a
  slices_S10000x21_S10000x7_0_0 : S10000x21.Slices ![0, 0] S10000x7
  slices_S10000x21_S10000x7_0_7 : S10000x21.Slices ![0, 7] S10000x7
  slices_S10000x21_S10000x7_0_14 : S10000x21.Slices ![0, 14] S10000x7
  shapeCasts_S_S1x1 : S_.ShapeCasts S1x1
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S200x7_S200x7_0_0 : ∀ a, (![0, 0] : Fin 2 → Nat) a + S200x7.size a ≤ S200x7.size a
  shapeCasts_S200x7_S200x7 : S200x7.ShapeCasts S200x7
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x7 : S1x1.Broadcasts S200x7
  reduces_S200x7_S200 : S200x7.Reduces [1] S200
  shapeCasts_S200_S200x1 : S200.ShapeCasts S200x1
  broadcasts_S200x1_S200x7 : S200x1.Broadcasts S200x7
  dot_S10000x128_S128x32_S10000x32_1_0_0_1_n_n_wf : DotDims.WF S10000x128 S128x32 S10000x32 [1] [0] [0] [1] [] []
  dot_S10000x192_S192x7_S10000x7_1_0_0_1_n_n_wf : DotDims.WF S10000x192 S192x7 S10000x7 [1] [0] [0] [1] [] []
  dot_S200x10000_S10000x39_S200x39_1_0_0_1_n_n_wf : DotDims.WF S200x10000 S10000x39 S200x39 [1] [0] [0] [1] [] []
  dot_S200x32_S32x7_S200x7_1_0_0_1_n_n_wf : DotDims.WF S200x32 S32x7 S200x7 [1] [0] [0] [1] [] []
  dot_S200x64_S64x7_S200x7_1_0_0_1_n_n_wf : DotDims.WF S200x64 S64x7 S200x7 [1] [0] [0] [1] [] []
  dot_S200x10000_S10000x7_S200x7_1_0_0_1_n_n_wf : DotDims.WF S200x10000 S10000x7 S200x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x39.size a ≤ S10000x39.size a
  hwx0_1 : ∀ i : grid0.Coords, EltTy.bits .f32 = 32 ∨ (Rect.block (s := S10000x39) S10000x39.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x39.size a ≤ S10000x39.size a
  hwx0_2 : ∀ i : grid0.Coords, EltTy.bits .f32 = 32 ∨ (Rect.block (s := S10000x39) S200x39.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S10000x64.size a
  hwx0_3 : ∀ i : grid0.Coords, EltTy.bits .f32 = 32 ∨ (Rect.block (s := S10000x64) S200x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x7.size a ≤ S32x7.size a
  hwx0_4 : ∀ i : grid0.Coords, EltTy.bits .f32 = 32 ∨ (Rect.block (s := S32x7) S32x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x7.size a ≤ S64x7.size a
  hwx0_5 : ∀ i : grid0.Coords, EltTy.bits .f32 = 32 ∨ (Rect.block (s := S64x7) S64x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x7.size a ≤ S32x7.size a
  hwx0_6 : ∀ i : grid0.Coords, EltTy.bits .f32 = 32 ∨ (Rect.block (s := S32x7) S32x7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x7.size a ≤ S64x7.size a
  hwx0_7 : ∀ i : grid0.Coords, EltTy.bits .f32 = 32 ∨ (Rect.block (s := S64x7) S64x7.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x7.size a ≤ S1x7.size a
  hwx0_8 : ∀ i : grid0.Coords, EltTy.bits .f32 = 32 ∨ (Rect.block (s := S1x7) S1x7.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x21.size a ≤ S10000x21.size a
  hwx0_9 : ∀ i : grid0.Coords, EltTy.bits .f32 = 32 ∨ (Rect.block (s := S10000x21) S200x21.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x7.size a ≤ S10000x7.size a
  hwx1_1 : ∀ i : grid1.Coords, EltTy.bits .f32 = 32 ∨ (Rect.block (s := S10000x7) S10000x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x7.size a ≤ S10000x7.size a
  hwx1_2 : ∀ i : grid1.Coords, EltTy.bits .f32 = 32 ∨ (Rect.block (s := S10000x7) S200x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x7.size a ≤ S10000x7.size a
  hwx1_3 : ∀ i : grid1.Coords, EltTy.bits .f32 = 32 ∨ (Rect.block (s := S10000x7) S200x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x7.size a ≤ S10000x7.size a
  hwx1_6 : ∀ i : grid1.Coords, EltTy.bits .f32 = 32 ∨ (Rect.block (s := S10000x7) S200x7.size (cc1_transform_6 i) (hinb1_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x192_S192x7_S10000x7_1_0_0_1_n_n : DotDims S10000x192 S192x7 S10000x7 where
  lhsContracting := [1]
  rhsContracting := [0]
  lhsNonContracting := [0]
  rhsNonContracting := [1]
  lhsBatch := []
  rhsBatch := []
  wf := dot_S10000x192_S192x7_S10000x7_1_0_0_1_n_n_wf
def dot_S200x10000_S10000x39_S200x39_1_0_0_1_n_n : DotDims S200x10000 S10000x39 S200x39 where
  lhsContracting := [1]
  rhsContracting := [0]
  lhsNonContracting := [0]
  rhsNonContracting := [1]
  lhsBatch := []
  rhsBatch := []
  wf := dot_S200x10000_S10000x39_S200x39_1_0_0_1_n_n_wf
def dot_S200x32_S32x7_S200x7_1_0_0_1_n_n : DotDims S200x32 S32x7 S200x7 where
  lhsContracting := [1]
  rhsContracting := [0]
  lhsNonContracting := [0]
  rhsNonContracting := [1]
  lhsBatch := []
  rhsBatch := []
  wf := dot_S200x32_S32x7_S200x7_1_0_0_1_n_n_wf
def dot_S200x64_S64x7_S200x7_1_0_0_1_n_n : DotDims S200x64 S64x7 S200x7 where
  lhsContracting := [1]
  rhsContracting := [0]
  lhsNonContracting := [0]
  rhsNonContracting := [1]
  lhsBatch := []
  rhsBatch := []
  wf := dot_S200x64_S64x7_S200x7_1_0_0_1_n_n_wf
def dot_S200x10000_S10000x7_S200x7_1_0_0_1_n_n : DotDims S200x10000 S10000x7 S200x7 where
  lhsContracting := [1]
  rhsContracting := [0]
  lhsNonContracting := [0]
  rhsNonContracting := [1]
  lhsBatch := []
  rhsBatch := []
  wf := dot_S200x10000_S10000x7_S200x7_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S10000x39.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S200x39.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S32x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S32x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S64x7.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x7.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S200x21.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S200x7.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S200x7.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S200x7.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩
abbrev S10000x32 : Shape := ⟨2, ![10000, 32]⟩
abbrev S1x32 : Shape := ⟨2, ![1, 32]⟩
abbrev S10000x96 : Shape := ⟨2, ![10000, 96]⟩
abbrev S10000x7 : Shape := ⟨2, ![10000, 7]⟩
abbrev S1x7 : Shape := ⟨2, ![1, 7]⟩
abbrev S10000x192 : Shape := ⟨2, ![10000, 192]⟩
abbrev S10000 : Shape := ⟨1, ![10000]⟩
abbrev S10000x1 : Shape := ⟨2, ![10000, 1]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S96x7, .f32⟩
  | .hbm, ⟨7, _⟩ => ⟨S96x7, .f32⟩
  | .hbm, ⟨8, _⟩ => ⟨S7, .f32⟩
  | .hbm, ⟨9, _⟩ => ⟨S192x7, .f32⟩
  | .hbm, ⟨10, _⟩ => ⟨S192x7, .f32⟩
  | .hbm, ⟨11, _⟩ => ⟨S7, .f32⟩
  | .hbm, ⟨12, _⟩ => ⟨S_, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x96, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S10000x7, .f32⟩
  | .hbm, ⟨29, _⟩ => ⟨S1x7, .f32⟩
  | .hbm, ⟨30, _⟩ => ⟨S10000x7, .f32⟩
  | .hbm, ⟨31, _⟩ => ⟨S10000x7, .f32⟩
  | .hbm, ⟨32, _⟩ => ⟨S10000x192, .f32⟩
  | .hbm, ⟨33, _⟩ => ⟨S10000x7, .f32⟩
  | .hbm, ⟨34, _⟩ => ⟨S10000x7, .f32⟩
  | .hbm, ⟨35, _⟩ => ⟨S10000x7, .f32⟩
  | .hbm, ⟨36, _⟩ => ⟨S10000x7, .f32⟩
  | .hbm, ⟨37, _⟩ => ⟨S1x7, .f32⟩
  | .hbm, ⟨38, _⟩ => ⟨S10000x7, .f32⟩
  | .hbm, ⟨39, _⟩ => ⟨S10000x7, .f32⟩
  | .hbm, ⟨40, _⟩ => ⟨S10000x7, .f32⟩
  | .hbm, ⟨41, _⟩ => ⟨S10000x7, .f32⟩
  | .hbm, ⟨42, _⟩ => ⟨S10000x7, .f32⟩
  | .hbm, ⟨43, _⟩ => ⟨S10000x7, .f32⟩
  | .hbm, ⟨44, _⟩ => ⟨S10000x7, .f32⟩
  | .hbm, ⟨45, _⟩ => ⟨S_, .f32⟩
  | .hbm, ⟨46, _⟩ => ⟨S10000x7, .f32⟩
  | .hbm, ⟨47, _⟩ => ⟨S10000x7, .f32⟩
  | .hbm, ⟨48, _⟩ => ⟨S_, .f32⟩
  | .hbm, ⟨49, _⟩ => ⟨S10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000x1, .f32⟩
  | .hbm, ⟨54, _⟩ => ⟨S10000x7, .f32⟩
  | .hbm, ⟨55, _⟩ => ⟨S10000x7, .f32⟩
  | .hbm, ⟨56, _⟩ => ⟨S10000x7, .f32⟩
  | .hbm, ⟨57, _⟩ => ⟨S_, .f32⟩
  | .hbm, ⟨58, _⟩ => ⟨S10000, .f32⟩
  | .hbm, ⟨59, _⟩ => ⟨S10000x1, .f32⟩
  | .hbm, ⟨60, _⟩ => ⟨S10000x7, .f32⟩
  | .hbm, ⟨61, _⟩ => ⟨S10000x7, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  concatenates_S10000x32_S10000x64_S10000x96_d1 : Shape.Concatenates [S10000x32, S10000x64] S10000x96 1
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  concatenates_S10000x128_S10000x64_S10000x192_d1 : Shape.Concatenates [S10000x128, S10000x64] S10000x192 1
  bcast_S_S10000x7 : S_.BroadcastsInDim S10000x7 (![] : Fin 0 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x96_S96x7_S10000x7_1_0_0_1_n_n_wf : DotDims.WF S10000x96 S96x7 S10000x7 [1] [0] [0] [1] [] []
  dot_S10000x10000_S10000x7_S10000x7_1_0_0_1_n_n_wf : DotDims.WF S10000x10000 S10000x7 S10000x7 [1] [0] [0] [1] [] []
  dot_S10000x192_S192x7_S10000x7_1_0_0_1_n_n_wf : DotDims.WF S10000x192 S192x7 S10000x7 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x96_S96x7_S10000x7_1_0_0_1_n_n : DotDims S10000x96 S96x7 S10000x7 where
  lhsContracting := [1]
  rhsContracting := [0]
  lhsNonContracting := [0]
  rhsNonContracting := [1]
  lhsBatch := []
  rhsBatch := []
  wf := dot_S10000x96_S96x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf
def dot_S10000x192_S192x7_S10000x7_1_0_0_1_n_n : DotDims S10000x192 S192x7 S10000x7 where
  lhsContracting := [1]
  rhsContracting := [0]
  lhsNonContracting := [0]
  rhsNonContracting := [1]
  lhsBatch := []
  rhsBatch := []
  wf := dot_S10000x192_S192x7_S10000x7_1_0_0_1_n_n_wf

class Facts : Prop extends Facts₀ where

variable [Facts]
-- ==== Proof.Spec.lean ====
/-
  The mathematics both programs compute, with no program in sight.

  A graph with adjacency `a` over nodes `ι` carries three one-step ARMA graph convolutions
  `x ↦ a · (x W₁) + x W₂ + b`.  The secondary one is followed by a ReLU and its 32 channels are joined with
  64 path features; the joined 96 channels feed a second convolution; a third runs on the raw features.  The
  result is the row softmax of `½ · (s₂ · main + s₁ · main_sec)`.

  The two programs differ only in how sums are grouped:
  * the bias is added to `x W₂` first, or to `a · (x W₁) + x W₂` last (associativity of `+`);
  * the 96-term contraction over the joined channels is taken whole, or as a 32-term sum over the ReLU
    channels plus a 64-term sum over the path channels (`Fin.sum_univ_add`).
  Both laws hold on the extended reals without any finiteness assumption.
-/
import Idealize.ShloMosaic.PureOps.Ideal
import Mathlib.Algebra.BigOperators.Fin

noncomputable section

open scoped BigOperators

namespace Cert.Arma

open Idealize.ShloMosaic

/-- The f32 word of −∞, from which both programs start their row maximum. -/
abbrev negInf : EReal := Ideal.ofBits .f32 0xFF800000#32

/-- A row's maximum as both programs take it: the fold of `max` from −∞, joined once more with −∞. -/
def rowTop (z : Fin 7 → EReal) : EReal := max negInf ((Finset.univ : Finset (Fin 7)).fold max negInf z)

/-- The softmax of one row of seven logits: `exp (z j − top) / Σ_k exp (z k − top)`. -/
def smx (z : Fin 7 → EReal) (j : Fin 7) : EReal :=
  Ideal.div (Ideal.exp (z j - rowTop z)) (∑ k : Fin 7, Ideal.exp (z k - rowTop z))

section Convolutions

variable {ι : Type} [Fintype ι]
variable (a : ι → ι → EReal) (u1 w1 : ι → Fin 32 → EReal) (b1 : Fin 32 → EReal)
  (u2 w2 : ι → Fin 7 → EReal) (b2 : Fin 7 → EReal) (path : ι → Fin 64 → EReal)
  (wa wb : Fin 96 → Fin 7 → EReal) (b3 : Fin 7 → EReal) (s1 s2 half : EReal)

/-- The ReLU channels, bias joined to `x W₂` first. -/
def secK (p : ι) (c : Fin 32) : EReal := max (∑ k, a p k * u1 k c + (w1 p c + b1 c)) 0
/-- The ReLU channels, bias added last. -/
def secR (p : ι) (c : Fin 32) : EReal := max ((∑ k, a p k * u1 k c + w1 p c) + b1 c) 0

theorem secK_eq_secR : secK a u1 w1 b1 = secR a u1 w1 b1 := by
  funext p c; unfold secK secR; rw [add_assoc]

/-- The main convolution, bias joined to `x W₂` first. -/
def mainK (p : ι) (j : Fin 7) : EReal := ∑ k, a p k * u2 k j + (w2 p j + b2 j)
/-- The main convolution, bias added last. -/
def mainR (p : ι) (j : Fin 7) : EReal := (∑ k, a p k * u2 k j + w2 p j) + b2 j

theorem mainK_eq_mainR : mainK a u2 w2 b2 = mainR a u2 w2 b2 := by
  funext p j; unfold mainK mainR; rw [add_assoc]

/-- The 96 joined channels times a weight matrix, as a 32-term sum plus a 64-term sum. -/
def projSplit (sec : ι → Fin 32 → EReal) (w : Fin 96 → Fin 7 → EReal) (p : ι) (j : Fin 7) : EReal :=
  ∑ k : Fin 32, sec p k * w (Fin.castAdd 64 k) j + ∑ k : Fin 64, path p k * w (Fin.natAdd 32 k) j

/-- The 96 joined channels: the ReLU channels, then the path features. -/
def joined (sec : ι → Fin 32 → EReal) (p : ι) (k : Fin 96) : EReal :=
  Fin.addCases (m := 32) (n := 64) (motive := fun _ => EReal) (sec p) (path p) k

/-- The 96 joined channels times a weight matrix, as one 96-term sum. -/
def projWhole (sec : ι → Fin 32 → EReal) (w : Fin 96 → Fin 7 → EReal) (p : ι) (j : Fin 7) : EReal :=
  ∑ k : Fin 96, joined path sec p k * w k j

theorem projSplit_eq_projWhole (sec : ι → Fin 32 → EReal) (w : Fin 96 → Fin 7 → EReal) :
    projSplit path sec w = projWhole path sec w := by
  funext p j
  unfold projSplit projWhole joined
  refine Eq.symm ((Fin.sum_univ_add (M := EReal) (a := 32) (b := 64) _).trans ?_)
  simp only [Fin.addCases_left, Fin.addCases_right]

/-- The second convolution over the joined channels, split sums, bias joined to the second projection first. -/
def msK (p : ι) (j : Fin 7) : EReal :=
  ∑ k, a p k * projSplit path (secK a u1 w1 b1) wa k j + (projSplit path (secK a u1 w1 b1) wb p j + b3 j)
/-- The second convolution over the joined channels, whole sums, bias added last. -/
def msR (p : ι) (j : Fin 7) : EReal :=
  (∑ k, a p k * projWhole path (secR a u1 w1 b1) wa k j + projWhole path (secR a u1 w1 b1) wb p j) + b3 j

theorem msK_eq_msR : msK a u1 w1 b1 path wa wb b3 = msR a u1 w1 b1 path wa wb b3 := by
  funext p j; unfold msK msR
  rw [secK_eq_secR, projSplit_eq_projWhole, projSplit_eq_projWhole, add_assoc]

/-- The logits, in the first grouping. -/
def zK (p : ι) (j : Fin 7) : EReal :=
  half * (s2 * mainK a u2 w2 b2 p j + s1 * msK a u1 w1 b1 path wa wb b3 p j)
/-- The logits, in the second grouping. -/
def zR (p : ι) (j : Fin 7) : EReal :=
  half * (s2 * mainR a u2 w2 b2 p j + s1 * msR a u1 w1 b1 path wa wb b3 p j)

/-- The two groupings give the same logits. -/
theorem zK_eq_zR : zK a u1 w1 b1 u2 w2 b2 path wa wb b3 s1 s2 half = zR a u1 w1 b1 u2 w2 b2 path wa wb b3 s1 s2 half := by
  funext p j; unfold zK zR; rw [mainK_eq_mainR, msK_eq_msR]

end Convolutions

end Cert.Arma

end
-- ==== Proof.Arrays.lean ====
/-
  The fourteen input arrays as the functions of node and channel that the specification is written over, and
  the result array in each of the two groupings.
-/
import proofs.«153962_j35545149341868_2_alg».proof.Proof.Spec
import Idealize.ShloMosaic.Lib.ValueIdx

noncomputable section

open scoped BigOperators

namespace Cert.Arma

open Idealize.ShloMosaic Idealize.ShloMosaic.ValueIdx

/-- A matrix of extended reals. -/
abbrev Mat (a b : ℕ) : Type := (⟨2, ![a, b]⟩ : Shape).Idx → EReal
/-- A vector of extended reals. -/
abbrev Vc (a : ℕ) : Type := (⟨1, ![a]⟩ : Shape).Idx → EReal
/-- A scalar, as a rank-0 array. -/
abbrev Sc : Type := (⟨0, ![]⟩ : Shape).Idx → EReal

variable (T : Mat 10000 128) (A : Mat 10000 10000) (Pt : Mat 10000 64) (Ws1 Ws2 : Mat 128 32) (bs : Vc 32)
  (Wm2a Wm2b : Mat 96 7) (bm2 : Vc 7) (Wma Wmb : Mat 192 7) (bm : Vc 7) (v1 v2 : Sc)

/-- The adjacency matrix. -/
def fa (p k : Fin 10000) : EReal := A (ix2 p k)
/-- The raw features of a node: its 128 temporal features, then its 64 path features. -/
def fx (p : Fin 10000) (q : Fin 192) : EReal :=
  Fin.addCases (m := 128) (n := 64) (motive := fun _ => EReal) (fun k => T (ix2 p k)) (fun k => Pt (ix2 p k)) q
/-- Temporal features times a 128 × 32 weight matrix. -/
def ftw (W : Mat 128 32) (p : Fin 10000) (c : Fin 32) : EReal := ∑ q : Fin 128, T (ix2 p q) * W (ix2 q c)
/-- Raw features times a 192 × 7 weight matrix. -/
def fxw (W : Mat 192 7) (p : Fin 10000) (j : Fin 7) : EReal := ∑ q : Fin 192, fx T Pt p q * W (ix2 q j)
/-- A bias vector. -/
def fb {n : ℕ} (b : Vc n) (c : Fin n) : EReal := b (ix1 c)
/-- The path features. -/
def fpath (p : Fin 10000) (k : Fin 64) : EReal := Pt (ix2 p k)
/-- A 96 × 7 weight matrix. -/
def fw96 (W : Mat 96 7) (k : Fin 96) (j : Fin 7) : EReal := W (ix2 k j)
/-- The f32 word of one half. -/
abbrev half : EReal := Ideal.ofBits .f32 0x3F000000#32

/-- The logits, first grouping. -/
def logitsK : Fin 10000 → Fin 7 → EReal :=
  zK (fa A) (ftw T Ws1) (ftw T Ws2) (fb bs) (fxw T Pt Wma) (fxw T Pt Wmb) (fb bm) (fpath Pt) (fw96 Wm2a) (fw96 Wm2b) (fb bm2)
    (v1 ix0) (v2 ix0) half
/-- The logits, second grouping. -/
def logitsR : Fin 10000 → Fin 7 → EReal :=
  zR (fa A) (ftw T Ws1) (ftw T Ws2) (fb bs) (fxw T Pt Wma) (fxw T Pt Wmb) (fb bm) (fpath Pt) (fw96 Wm2a) (fw96 Wm2b) (fb bm2)
    (v1 ix0) (v2 ix0) half

/-- The result array, first grouping: the row softmax of the logits. -/
def outK : Mat 10000 7 := fun i => smx (logitsK T A Pt Ws1 Ws2 bs Wm2a Wm2b bm2 Wma Wmb bm v1 v2 (i 0)) (i 1)
/-- The result array, second grouping. -/
def outR : Mat 10000 7 := fun i => smx (logitsR T A Pt Ws1 Ws2 bs Wm2a Wm2b bm2 Wma Wmb bm v1 v2 (i 0)) (i 1)

/-- The two groupings give one result array. -/
theorem outK_eq_outR : outK T A Pt Ws1 Ws2 bs Wm2a Wm2b bm2 Wma Wmb bm v1 v2 = outR T A Pt Ws1 Ws2 bs Wm2a Wm2b bm2 Wma Wmb bm v1 v2 := by
  unfold outK outR logitsK logitsR; rw [zK_eq_zR]

end Cert.Arma

end
-- ==== Proof.KernelRun.lean ====
/-
  The idealized kernel's run, with the result array named.

  @main is four segments: host operations, the first streaming pass over the adjacency matrix, host operations
  (three column slices of the packed result and two reshapes), the second streaming pass.  The buffer contents at
  the segment boundaries are a fold from the launch memory; the run ends with every unscoped buffer at the last
  boundary's contents, so in particular the result array holds what the second pass's write-backs leave there.
-/
import proofs.«153962_j35545149341868_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The idealized kernel's run with its RESULT named: every weakly fair execution of @main terminates, nothing
    faulting, the result array ends at what the fold through @main's four segments leaves in it (`W4`), and the
    argument arrays end as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Whole

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Pass1Point.lean ====
/-
  The first streaming pass at one entry of a row block.

  With the block's 200 rows of the adjacency matrix `v0`, the whole packed right-hand side `v2` (39 columns: 32
  for the secondary convolution, 7 for the main one) and the block's rows of the packed bias `v6`, the accumulator
  is `acc = v0 · v2 + v6`.  Its last 7 columns are the main convolution; the ReLU of its first 32 columns, with
  the block's 64 path features `v14`, is projected by two pairs of weight matrices (a 32-row and a 64-row part
  each); the second projection gets a bias row.
-/
import proofs.«153962_j35545149341868_2_alg».proof.Proof.Gen.KernelIdeal.Skeleton
import proofs.«153962_j35545149341868_2_alg».proof.Proof.LibMatmulPlain
import Idealize.ShloMosaic.Lib.Pipeline.Value
import Idealize.ShloMosaic.Lib.ValueIdx
import Idealize.ShloMosaic.Lib.ValueLayout

noncomputable section

open scoped BigOperators

namespace Cert.KernelIdeal.Pass1

open Cert.KernelIdeal Cert.KernelIdeal.Gen
open Idealize.ShloMosaic Idealize.ShloMosaic.ValueIdx

variable (v0 : Vec Ideal S200x10000 .f32) (v2 : Vec Ideal S10000x39 .f32) (v6 : Vec Ideal S200x39 .f32) (v14 : Vec Ideal S200x64 .f32)

/-- The accumulator at `(r, c)`: row `r` of the adjacency block against column `c` of the packed right-hand side,
    plus the packed bias. -/
def accAt (r : Fin 200) (c : Fin 39) : EReal := ∑ k : Fin 10000, v0 (ix2 r k) * v2 (ix2 k c) + v6 (ix2 r c)

theorem pay2_apply (r : Fin 200) (c : Fin 39) : k0_pay2 v0 v2 v6 (ix2 r c) = accAt v0 v2 v6 r c := by
  unfold k0_pay2 accAt
  simp only [shapeCast_self]
  rw [addf_apply]
  rw [show matmul dot_S200x10000_S10000x39_S200x39_1_0_0_1_n_n none (truncf .bf16 v0 bitsLt_bf16_f32) (truncf .bf16 v2 bitsLt_bf16_f32)
        (constant (F := Ideal) S200x39 .f32 0x00000000#32) (ix2 r c) = ∑ k : Fin 10000, v0 (ix2 r k) * v2 (ix2 k c) from
      MatmulPlain.matmul_zero_apply (M := 200) (K := 10000) (N := 39) none _ _ (ix2 r c)]

/-- The main convolution's columns are the accumulator's last seven. -/
theorem pay3_apply (r : Fin 200) (j : Fin 7) :
    k0_pay3 v0 v2 v6 (ix2 r j) = accAt v0 v2 v6 r (Fin.natAdd 32 j) := by
  unfold k0_pay3
  exact (slice2_axis1_apply 32 _ slices_S200x39_o0_32_S200x7 r j (Fin.natAdd 32 j) rfl).trans (pay2_apply v0 v2 v6 r _)

/-- The ReLU channels are the accumulator's first 32 columns, cut at zero. -/
theorem pay4_apply (r : Fin 200) (c : Fin 32) :
    k0_pay4 v0 v2 v6 (ix2 r c) = max (accAt v0 v2 v6 r (Fin.castAdd 7 c)) 0 := by
  unfold k0_pay4
  show max (extractStridedSlice S200x32 ![0, 0] (k0_pay2 v0 v2 v6) slices_S200x39_o0_0_S200x32 (ix2 r c)) (Ideal.ofBits .f32 0x00000000#32) = _
  rw [Ideal.ofBits_zero_f32]
  exact congrArg (max · 0) ((slice2_axis1_apply 0 _ slices_S200x39_o0_0_S200x32 r c (Fin.castAdd 7 c) (Nat.zero_add _).symm).trans
    (pay2_apply v0 v2 v6 r _))

/-- The ReLU channels and the path features against a 32-row and a 64-row weight matrix. -/
def projAt (w32 : Vec Ideal S32x7 .f32) (w64 : Vec Ideal S64x7 .f32) (r : Fin 200) (j : Fin 7) : EReal :=
  ∑ k : Fin 32, max (accAt v0 v2 v6 r (Fin.castAdd 7 k)) 0 * w32 (ix2 k j) + ∑ k : Fin 64, v14 (ix2 r k) * w64 (ix2 k j)

theorem pay6_apply (v16 : Vec Ideal S32x7 .f32) (v20 : Vec Ideal S64x7 .f32) (r : Fin 200) (j : Fin 7) :
    k0_pay6 v0 v2 v6 v14 v16 v20 (ix2 r j) = projAt v0 v2 v6 v14 v16 v20 r j := by
  unfold k0_pay6 projAt k0_pay5
  simp only [shapeCast_self]
  rw [addf_apply]
  rw [show matmul dot_S200x32_S32x7_S200x7_1_0_0_1_n_n none (k0_pay4 v0 v2 v6) (truncf .bf16 v16 bitsLt_bf16_f32)
        (constant (F := Ideal) S200x7 .f32 0x00000000#32) (ix2 r j) = ∑ k : Fin 32, k0_pay4 v0 v2 v6 (ix2 r k) * v16 (ix2 k j) from
      MatmulPlain.matmul_zero_apply (M := 200) (K := 32) (N := 7) none _ _ (ix2 r j)]
  rw [show matmul dot_S200x64_S64x7_S200x7_1_0_0_1_n_n none (truncf .bf16 v14 bitsLt_bf16_f32) (truncf .bf16 v20 bitsLt_bf16_f32)
        (constant (F := Ideal) S200x7 .f32 0x00000000#32) (ix2 r j) = ∑ k : Fin 64, v14 (ix2 r k) * v20 (ix2 k j) from
      MatmulPlain.matmul_zero_apply (M := 200) (K := 64) (N := 7) none _ _ (ix2 r j)]
  exact congrArg (· + _) (Finset.sum_congr rfl fun k _ => by rw [pay4_apply])

theorem pay7_apply (v25 : Vec Ideal S32x7 .f32) (v29 : Vec Ideal S64x7 .f32) (r : Fin 200) (j : Fin 7) :
    k0_pay7 v0 v2 v6 v14 v25 v29 (ix2 r j) = projAt v0 v2 v6 v14 v25 v29 r j := by
  unfold k0_pay7 projAt k0_pay5
  simp only [shapeCast_self]
  rw [addf_apply]
  rw [show matmul dot_S200x32_S32x7_S200x7_1_0_0_1_n_n none (k0_pay4 v0 v2 v6) (truncf .bf16 v25 bitsLt_bf16_f32)
        (constant (F := Ideal) S200x7 .f32 0x00000000#32) (ix2 r j) = ∑ k : Fin 32, k0_pay4 v0 v2 v6 (ix2 r k) * v25 (ix2 k j) from
      MatmulPlain.matmul_zero_apply (M := 200) (K := 32) (N := 7) none _ _ (ix2 r j)]
  rw [show matmul dot_S200x64_S64x7_S200x7_1_0_0_1_n_n none (truncf .bf16 v14 bitsLt_bf16_f32) (truncf .bf16 v29 bitsLt_bf16_f32)
        (constant (F := Ideal) S200x7 .f32 0x00000000#32) (ix2 r j) = ∑ k : Fin 64, v14 (ix2 r k) * v29 (ix2 k j) from
      MatmulPlain.matmul_zero_apply (M := 200) (K := 64) (N := 7) none _ _ (ix2 r j)]
  exact congrArg (· + _) (Finset.sum_congr rfl fun k _ => by rw [pay4_apply])

/-- The second projection with its bias row added. -/
theorem pay1_apply (v33 : FVec Ideal S200x7 .f32) (v34 : Vec Ideal S1x7 .f32) (r : Fin 200) (j : Fin 7) :
    k0_pay1 v33 v34 (ix2 r j) = v33 (ix2 r j) + v34 (ix2 (0 : Fin 1) j) := by
  unfold k0_pay1
  simp only [shapeCast_self]
  rw [addf_apply, broadcastTo_1b_ab_apply]

end Cert.KernelIdeal.Pass1

end
-- ==== Proof.Pass1Whole.lean ====
/-
  The first streaming pass as functions of whole arrays: the accumulator `A · x₁ + y₂`, the projections of its
  ReLU channels and the path features, and the packed 21-column result.
-/
import proofs.«153962_j35545149341868_2_alg».proof.KernelIdeal
import Idealize.ShloMosaic.PureOps.Ideal
import Idealize.ShloMosaic.Lib.ValueIdx

noncomputable section

open scoped BigOperators

namespace Cert.KernelIdeal.Pass1Arr

open Cert.KernelIdeal
open Idealize.ShloMosaic Idealize.ShloMosaic.ValueIdx

section Whole

variable (A : S10000x10000.Idx → EReal) (x1 y2 : S10000x39.Idx → EReal) (Pt : S10000x64.Idx → EReal)

/-- The accumulator over the whole array: `A · x₁ + y₂` at `(p, c)`. -/
def accW (p : Fin 10000) (c : Fin 39) : EReal := ∑ k : Fin 10000, A (ix2 p k) * x1 (ix2 k c) + y2 (ix2 p c)

/-- The ReLU channels and the path features of node `p` against a 32-row and a 64-row weight matrix. -/
def projW (w32 : S32x7.Idx → EReal) (w64 : S64x7.Idx → EReal) (p : Fin 10000) (j : Fin 7) : EReal :=
  ∑ k : Fin 32, max (accW A x1 y2 p (Fin.castAdd 7 k)) 0 * w32 (ix2 k j) + ∑ k : Fin 64, Pt (ix2 p k) * w64 (ix2 k j)

/-- The packed result at node `p` and packed column `q`: three groups of seven columns — the main convolution, the
    second pass's right-hand side, the second pass's bias. -/
def packedAt (wa32 : S32x7.Idx → EReal) (wa64 : S64x7.Idx → EReal) (wb32 : S32x7.Idx → EReal) (wb64 : S64x7.Idx → EReal)
    (b : S1x7.Idx → EReal) (p : Fin 10000) (q : Fin 21) : EReal :=
  Fin.addCases (m := 7) (n := 7 + 7) (motive := fun _ => EReal)
    (fun j => accW A x1 y2 p (Fin.natAdd 32 j))
    (fun q' => Fin.addCases (m := 7) (n := 7) (motive := fun _ => EReal)
      (fun j => projW A x1 y2 Pt wa32 wa64 p j)
      (fun j => projW A x1 y2 Pt wb32 wb64 p j + b (ix2 (0 : Fin 1) j)) q')
    q

/-- The packed result as an array. -/
def packed (wa32 : S32x7.Idx → EReal) (wa64 : S64x7.Idx → EReal) (wb32 : S32x7.Idx → EReal) (wb64 : S64x7.Idx → EReal)
    (b : S1x7.Idx → EReal) : S10000x21.Idx → EReal := fun i => packedAt A x1 y2 Pt wa32 wa64 wb32 wb64 b (i 0) (i 1)

end Whole

end Cert.KernelIdeal.Pass1Arr

end
-- ==== Proof.Pass1Array.lean ====
/-
  The first streaming pass over the whole array.

  The pass runs over 50 row blocks of 200 rows.  Block `t` reads rows `200 t … 200 t + 199` of the adjacency matrix,
  of the packed bias and of the path features, and the whole packed right-hand side, the four weight matrices and
  the bias row; it writes rows `200 t … 200 t + 199` of a packed 21-column result: columns 0–6 the main
  convolution, columns 7–13 the right-hand side of the second pass, columns 14–20 its bias.  The packed array is ONE
  function of the arrays the pass finds.
-/
import proofs.«153962_j35545149341868_2_alg».proof.Proof.Gen.KernelIdeal.Frame
import proofs.«153962_j35545149341868_2_alg».proof.Proof.Pass1Point
import proofs.«153962_j35545149341868_2_alg».proof.Proof.Pass1Whole
import Idealize.ShloMosaic.Lib.Pipeline.Value

set_option maxRecDepth 16384

noncomputable section

open scoped BigOperators

namespace Cert.KernelIdeal.Pass1Arr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `r` of block `t` is row `200 t + r` of the array. -/
def row (t : Fin cfg0.N) (r : Fin 200) : Fin 10000 :=
  ⟨t.val * 200 + r.val, by have ht : t.val < 50 := t.isLt; have hr := r.isLt; omega⟩

/-- The packed array of the pass as one function of the arrays it finds. -/
def G0 (c : Dev nD) : S10000x21.Idx → EReal :=
  packed (V c main_arg1) (V c main_v3) (V c main_v12) (V c main_arg2) (V c main_v13) (V c main_v14) (V c main_v15) (V c main_v16) (V c main_v17)

theorem hz : (![0, 0] : Fin 2 → Nat) = fun _ => 0 := funext fun a => by fin_cases a <;> rfl

/-- The printed index maps over the grid: the row-tiled windows are at block row `t`, the resident ones at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem blk0 (c : Dev nD) (t : Fin cfg0.N) (r : Fin 200) (k : Fin 10000) :
    iblk0 V c 0 t (ix2 r k) = V c main_arg1 (ix2 (row t r) k) := by
  show V c main_arg1 (((cfg0.win 0).blk t).view.emb (ix2 r k)) = _
  refine congrArg (V c main_arg1) (funext fun a => Fin.ext ?_)
  obtain ⟨e0, e1, -⟩ := idx_facts t
  match a with
  | ⟨0, _⟩ => show win0_0.index t (0 : Fin 2) * 200 + 1 * r.val = t.val * 200 + r.val; omega
  | ⟨1, _⟩ => show win0_0.index t (1 : Fin 2) * 10000 + 1 * k.val = k.val; omega

theorem blk1 (c : Dev nD) (t : Fin cfg0.N) (q : Fin 10000) (k : Fin 39) :
    iblk0 V c 1 t (ix2 q k) = V c main_v3 (ix2 q k) := by
  show V c main_v3 (((cfg0.win 1).blk t).view.emb (ix2 q k)) = _
  refine congrArg (V c main_v3) (funext fun a => Fin.ext ?_)
  obtain ⟨-, -, e0, e1, -⟩ := idx_facts t
  match a with
  | ⟨0, _⟩ => show win0_1.index t (0 : Fin 2) * 10000 + 1 * q.val = q.val; omega
  | ⟨1, _⟩ => show win0_1.index t (1 : Fin 2) * 39 + 1 * k.val = k.val; omega

theorem blk2 (c : Dev nD) (t : Fin cfg0.N) (r : Fin 200) (k : Fin 39) :
    iblk0 V c 2 t (ix2 r k) = V c main_v12 (ix2 (row t r) k) := by
  show V c main_v12 (((cfg0.win 2).blk t).view.emb (ix2 r k)) = _
  refine congrArg (V c main_v12) (funext fun a => Fin.ext ?_)
  obtain ⟨-, -, -, -, e0, e1, -⟩ := idx_facts t
  match a with
  | ⟨0, _⟩ => show win0_2.index t (0 : Fin 2) * 200 + 1 * r.val = t.val * 200 + r.val; omega
  | ⟨1, _⟩ => show win0_2.index t (1 : Fin 2) * 39 + 1 * k.val = k.val; omega

theorem blk3 (c : Dev nD) (t : Fin cfg0.N) (r : Fin 200) (k : Fin 64) :
    iblk0 V c 3 t (ix2 r k) = V c main_arg2 (ix2 (row t r) k) := by
  show V c main_arg2 (((cfg0.win 3).blk t).view.emb (ix2 r k)) = _
  refine congrArg (V c main_arg2) (funext fun a => Fin.ext ?_)
  obtain ⟨-, -, -, -, -, -, e0, e1, -⟩ := idx_facts t
  match a with
  | ⟨0, _⟩ => show win0_3.index t (0 : Fin 2) * 200 + 1 * r.val = t.val * 200 + r.val; omega
  | ⟨1, _⟩ => show win0_3.index t (1 : Fin 2) * 64 + 1 * k.val = k.val; omega

theorem blk4 (c : Dev nD) (t : Fin cfg0.N) (q : Fin 32) (k : Fin 7) :
    iblk0 V c 4 t (ix2 q k) = V c main_v13 (ix2 q k) := by
  show V c main_v13 (((cfg0.win 4).blk t).view.emb (ix2 q k)) = _
  refine congrArg (V c main_v13) (funext fun a => Fin.ext ?_)
  obtain ⟨-, -, -, -, -, -, -, -, e0, e1, -⟩ := idx_facts t
  match a with
  | ⟨0, _⟩ => show win0_4.index t (0 : Fin 2) * 32 + 1 * q.val = q.val; omega
  | ⟨1, _⟩ => show win0_4.index t (1 : Fin 2) * 7 + 1 * k.val = k.val; omega

theorem blk5 (c : Dev nD) (t : Fin cfg0.N) (q : Fin 64) (k : Fin 7) :
    iblk0 V c 5 t (ix2 q k) = V c main_v14 (ix2 q k) := by
  show V c main_v14 (((cfg0.win 5).blk t).view.emb (ix2 q k)) = _
  refine congrArg (V c main_v14) (funext fun a => Fin.ext ?_)
  obtain ⟨-, -, -, -, -, -, -, -, -, -, e0, e1, -⟩ := idx_facts t
  match a with
  | ⟨0, _⟩ => show win0_5.index t (0 : Fin 2) * 64 + 1 * q.val = q.val; omega
  | ⟨1, _⟩ => show win0_5.index t (1 : Fin 2) * 7 + 1 * k.val = k.val; omega

theorem blk6 (c : Dev nD) (t : Fin cfg0.N) (q : Fin 32) (k : Fin 7) :
    iblk0 V c 6 t (ix2 q k) = V c main_v15 (ix2 q k) := by
  show V c main_v15 (((cfg0.win 6).blk t).view.emb (ix2 q k)) = _
  refine congrArg (V c main_v15) (funext fun a => Fin.ext ?_)
  obtain ⟨-, -, -, -, -, -, -, -, -, -, -, -, e0, e1, -⟩ := idx_facts t
  match a with
  | ⟨0, _⟩ => show win0_6.index t (0 : Fin 2) * 32 + 1 * q.val = q.val; omega
  | ⟨1, _⟩ => show win0_6.index t (1 : Fin 2) * 7 + 1 * k.val = k.val; omega

theorem blk7 (c : Dev nD) (t : Fin cfg0.N) (q : Fin 64) (k : Fin 7) :
    iblk0 V c 7 t (ix2 q k) = V c main_v16 (ix2 q k) := by
  show V c main_v16 (((cfg0.win 7).blk t).view.emb (ix2 q k)) = _
  refine congrArg (V c main_v16) (funext fun a => Fin.ext ?_)
  obtain ⟨-, -, -, -, -, -, -, -, -, -, -, -, -, -, e0, e1, -⟩ := idx_facts t
  match a with
  | ⟨0, _⟩ => show win0_7.index t (0 : Fin 2) * 64 + 1 * q.val = q.val; omega
  | ⟨1, _⟩ => show win0_7.index t (1 : Fin 2) * 7 + 1 * k.val = k.val; omega

theorem blk8 (c : Dev nD) (t : Fin cfg0.N) (k : Fin 7) :
    iblk0 V c 8 t (ix2 (0 : Fin 1) k) = V c main_v17 (ix2 (0 : Fin 1) k) := by
  show V c main_v17 (((cfg0.win 8).blk t).view.emb (ix2 (0 : Fin 1) k)) = _
  refine congrArg (V c main_v17) (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 7 + 1 * k.val = k.val; omega

/-- The block's accumulator is the whole array's at row `200 t + r`. -/
theorem acc_blk (c : Dev nD) (t : Fin cfg0.N) (r : Fin 200) (q : Fin 39) :
    Pass1.accAt (iblk0 V c 0 t) (iblk0 V c 1 t) (iblk0 V c 2 t) r q
      = accW (V c main_arg1) (V c main_v3) (V c main_v12) (row t r) q := by
  unfold Pass1.accAt accW
  rw [blk2]
  exact congrArg (· + _) (Finset.sum_congr rfl fun k _ => by rw [blk0, blk1])

/-- The projections of a block are the whole array's at row `200 t + r` (first pair of weight matrices). -/
theorem proj_blk45 (c : Dev nD) (t : Fin cfg0.N) (r : Fin 200) (j : Fin 7) :
    Pass1.projAt (iblk0 V c 0 t) (iblk0 V c 1 t) (iblk0 V c 2 t) (iblk0 V c 3 t) (iblk0 V c 4 t) (iblk0 V c 5 t) r j
      = projW (V c main_arg1) (V c main_v3) (V c main_v12) (V c main_arg2) (V c main_v13) (V c main_v14) (row t r) j := by
  unfold Pass1.projAt projW
  simp only [acc_blk, blk3, blk4, blk5]

/-- The same for the second pair of weight matrices. -/
theorem proj_blk67 (c : Dev nD) (t : Fin cfg0.N) (r : Fin 200) (j : Fin 7) :
    Pass1.projAt (iblk0 V c 0 t) (iblk0 V c 1 t) (iblk0 V c 2 t) (iblk0 V c 3 t) (iblk0 V c 6 t) (iblk0 V c 7 t) r j
      = projW (V c main_arg1) (V c main_v3) (V c main_v12) (V c main_arg2) (V c main_v15) (V c main_v16) (row t r) j := by
  unfold Pass1.projAt projW
  simp only [acc_blk, blk3, blk6, blk7]

/-- Entry `(r, q)` of the output's block `t` is entry `(200 t + r, q)` of the packed array. -/
theorem emb9 (t : Fin cfg0.N) (r : Fin 200) (q : Fin 21) :
    ((cfg0.win 9).blk t).view.emb (ix2 r q) = ix2 (row t r) q := by
  funext a; apply Fin.ext
  obtain ⟨-, -, -, -, -, -, -, -, -, -, -, -, -, -, -, -, -, -, e0, e1⟩ := idx_facts t
  match a with
  | ⟨0, _⟩ => show win0_9.index t (0 : Fin 2) * 200 + 1 * r.val = t.val * 200 + r.val; omega
  | ⟨1, _⟩ => show win0_9.index t (1 : Fin 2) * 21 + 1 * q.val = q.val; omega

/-- The first store fills the block's columns 0–6, -/
theorem emb_r7 (r : Fin 200) (j : Fin 7) : (r0_7).emb (ix2 r j) = ix2 r (Fin.castAdd (7 + 7) j) := by
  funext a; apply Fin.ext
  match a with
  | ⟨0, _⟩ => show 0 + 1 * r.val = r.val; omega
  | ⟨1, _⟩ => show 0 + 1 * j.val = j.val; omega

/-- the second its columns 7–13, -/
theorem emb_r8 (r : Fin 200) (j : Fin 7) : (r0_8).emb (ix2 r j) = ix2 r (Fin.natAdd 7 (Fin.castAdd 7 j)) := by
  funext a; apply Fin.ext
  match a with
  | ⟨0, _⟩ => show 0 + 1 * r.val = r.val; omega
  | ⟨1, _⟩ => show 7 + 1 * j.val = 7 + j.val; omega

/-- the third its columns 14–20. -/
theorem emb_r9 (r : Fin 200) (j : Fin 7) : (r0_9).emb (ix2 r j) = ix2 r (Fin.natAdd 7 (Fin.natAdd 7 j)) := by
  funext a; apply Fin.ext
  match a with
  | ⟨0, _⟩ => show 0 + 1 * r.val = r.val; omega
  | ⟨1, _⟩ => show 14 + 1 * j.val = 7 + (7 + j.val); omega

/-- The first store's payload is the packed array's main-convolution columns of the block's rows. -/
theorem piece7 (c : Dev nD) (t : Fin cfg0.N) (x : S200x7.Idx) :
    k0_pay3 (iblk0 V c 0 t) (iblk0 V c 1 t) (iblk0 V c 2 t) x = G0 V c (((cfg0.win 9).blk t).view.emb ((r0_7).emb x)) := by
  obtain ⟨r, j, rfl⟩ : ∃ (r : Fin 200) (j : Fin 7), x = ix2 r j := ⟨x 0, x 1, eq_ix2 x⟩
  rw [emb_r7, emb9]
  show _ = packedAt (V c main_arg1) (V c main_v3) (V c main_v12) (V c main_arg2) (V c main_v13) (V c main_v14) (V c main_v15) (V c main_v16)
    (V c main_v17) (row t r) (Fin.castAdd (7 + 7) j)
  unfold packedAt
  rw [Fin.addCases_left]
  exact (Pass1.pay3_apply (iblk0 V c 0 t) (iblk0 V c 1 t) (iblk0 V c 2 t) r j).trans (acc_blk V c t r _)

/-- The second store's payload is the packed array's right-hand-side columns. -/
theorem piece8 (c : Dev nD) (t : Fin cfg0.N) (x : S200x7.Idx) :
    k0_pay6 (iblk0 V c 0 t) (iblk0 V c 1 t) (iblk0 V c 2 t) (iblk0 V c 3 t) (iblk0 V c 4 t) (iblk0 V c 5 t) x
      = G0 V c (((cfg0.win 9).blk t).view.emb ((r0_8).emb x)) := by
  obtain ⟨r, j, rfl⟩ : ∃ (r : Fin 200) (j : Fin 7), x = ix2 r j := ⟨x 0, x 1, eq_ix2 x⟩
  rw [emb_r8, emb9]
  show _ = packedAt (V c main_arg1) (V c main_v3) (V c main_v12) (V c main_arg2) (V c main_v13) (V c main_v14) (V c main_v15) (V c main_v16)
    (V c main_v17) (row t r) (Fin.natAdd 7 (Fin.castAdd 7 j))
  unfold packedAt
  rw [Fin.addCases_right, Fin.addCases_left]
  exact (Pass1.pay6_apply (iblk0 V c 0 t) (iblk0 V c 1 t) (iblk0 V c 2 t) (iblk0 V c 3 t) (iblk0 V c 4 t) (iblk0 V c 5 t) r j).trans
    (proj_blk45 V c t r j)

/-- The third store's payload is the packed array's bias columns. -/
theorem piece9 (c : Dev nD) (t : Fin cfg0.N) (x : S200x7.Idx) :
    k0_pay1 (k0_pay7 (iblk0 V c 0 t) (iblk0 V c 1 t) (iblk0 V c 2 t) (iblk0 V c 3 t) (iblk0 V c 6 t) (iblk0 V c 7 t)) (iblk0 V c 8 t) x
      = G0 V c (((cfg0.win 9).blk t).view.emb ((r0_9).emb x)) := by
  obtain ⟨r, j, rfl⟩ : ∃ (r : Fin 200) (j : Fin 7), x = ix2 r j := ⟨x 0, x 1, eq_ix2 x⟩
  rw [emb_r9, emb9]
  show _ = packedAt (V c main_arg1) (V c main_v3) (V c main_v12) (V c main_arg2) (V c main_v13) (V c main_v14) (V c main_v15) (V c main_v16)
    (V c main_v17) (row t r) (Fin.natAdd 7 (Fin.natAdd 7 j))
  unfold packedAt
  rw [Fin.addCases_right, Fin.addCases_right]
  refine (Pass1.pay1_apply _ (iblk0 V c 8 t) r j).trans ?_
  refine congrArg₂ (· + ·) ?_ (blk8 V c t j)
  exact (Pass1.pay7_apply (iblk0 V c 0 t) (iblk0 V c 1 t) (iblk0 V c 2 t) (iblk0 V c 3 t) (iblk0 V c 6 t) (iblk0 V c 7 t) r j).trans
    (proj_blk67 V c t r j)

/-- What block `t` writes back is block `t` of the one packed array: each of its three stores is. -/
theorem flushed_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  simp only [View.ld_unit_zero (S := S200x10000) hz, View.ld_unit_zero (S := S10000x39) hz, View.ld_unit_zero (S := S200x39) hz,
    View.ld_unit_zero (S := S200x64) hz, View.ld_unit_zero (S := S32x7) hz, View.ld_unit_zero (S := S64x7) hz,
    View.ld_unit_zero (S := S1x7) hz]
  funext y
  refine (View.canon_apply_of_pieces (fun y => G0 V c (((cfg0.win 9).blk t).view.emb y)) _ ?_ y (cover0_9 _ _ _ y)).trans rfl
  intro p hp
  simp only [List.mem_cons, List.mem_singleton, List.not_mem_nil, or_false] at hp
  rcases hp with rfl | rfl | rfl
  · exact piece9 V c t
  · exact piece8 V c t
  · exact piece7 V c t

/-- An index of the packed array is in block `t` iff each coordinate is in the block's range on its axis. -/
theorem mem_blk (t : Fin cfg0.N) (i : S10000x21.Idx) :
    i ∈ ((cfg0.win 9).blk t).view.set ↔ ∀ a : Fin 2, win0_9.index t a * S200x21.size a ≤ (i a).val
      ∧ (i a).val < win0_9.index t a * S200x21.size a + S200x21.size a := by
  show i ∈ ((View.whole main_v18).slice (win0_9.rect t)).set ↔ _
  rw [View.set_slice_whole, Rect.mem_set_unit]
  exact Iff.rfl

/-- The packed array after the pass is the one whole-array function: row `p` is written by block `p / 200`. -/
theorem final (c : Dev nD) : (dat0 V c).arrAt 9 cfg0.N = G0 V c := by
  funext i
  have hi0 : (i 0).val < 10000 := (i 0).isLt
  have hi1 : (i 1).val < 21 := (i 1).isLt
  have htlt : (i 0).val / 200 < cfg0.N := by show _ < 50; omega
  refine (dat0 V c).arrAt_apply_of_mem 9 (G0 V c) (fun t _ => flushed_eq V c t) cfg0.N ⟨(i 0).val / 200, htlt⟩ i htlt (flush0_9 _) ?_
  rw [mem_blk]
  obtain ⟨-, -, -, -, -, -, -, -, -, -, -, -, -, -, -, -, -, -, e0, e1⟩ := idx_facts ⟨(i 0).val / 200, htlt⟩
  intro a
  match a with
  | ⟨0, _⟩ =>
    show win0_9.index ⟨(i 0).val / 200, htlt⟩ (0 : Fin 2) * 200 ≤ (i 0).val ∧ (i 0).val < win0_9.index ⟨(i 0).val / 200, htlt⟩ (0 : Fin 2) * 200 + 200
    rw [e0]; show (i 0).val / 200 * 200 ≤ (i 0).val ∧ (i 0).val < (i 0).val / 200 * 200 + 200; omega
  | ⟨1, _⟩ =>
    show win0_9.index ⟨(i 0).val / 200, htlt⟩ (1 : Fin 2) * 21 ≤ (i 1).val ∧ (i 1).val < win0_9.index ⟨(i 0).val / 200, htlt⟩ (1 : Fin 2) * 21 + 21
    rw [e1]; omega

end Cert.KernelIdeal.Pass1Arr

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Pass2Point.lean ====
/-
  The second streaming pass at one entry of a row block.

  With the block's 200 rows of the adjacency matrix `x0`, the whole right-hand side `x1`, the block's rows of
  the bias `x2` and of the first convolution `x3`, and the two mixing scalars `x4`, `x5`, the body stores at
  `(r, j)` the softmax over the seven columns of `½ · (x5 · x3 + x4 · (x0 · x1 + x2))`.
-/
import proofs.«153962_j35545149341868_2_alg».proof.Proof.Gen.KernelIdeal.Skeleton
import proofs.«153962_j35545149341868_2_alg».proof.Proof.Arrays
import proofs.«153962_j35545149341868_2_alg».proof.Proof.LibMatmulPlain
import proofs.«153962_j35545149341868_2_alg».proof.Proof.LibRowReduce
import proofs.«153962_j35545149341868_2_alg».proof.Proof.LibKeepdims
import Idealize.ShloMosaic.Lib.Pipeline.Value
import Idealize.ShloMosaic.Lib.ValueIdx

noncomputable section

open scoped BigOperators

namespace Cert.KernelIdeal.Pass2

open Cert.KernelIdeal Cert.KernelIdeal.Gen
open Idealize.ShloMosaic Idealize.ShloMosaic.ValueIdx

/-- The logits of a row block: the first half of the body's arithmetic. -/
def logitsBlk (v0 : Vec Ideal S200x10000 .f32) (v2 : Vec Ideal S10000x7 .f32) (v6 : Vec Ideal S200x7 .f32) (v9 : Vec Ideal S200x7 .f32)
    (v11 : Vec Ideal S1x1 .f32) (v13 : Vec Ideal S1x1 .f32) : FVec Ideal S200x7 .f32 :=
  have v1 : FVec Ideal S200x10000 .bf16 := truncf .bf16 v0 bitsLt_bf16_f32
  have v3 : FVec Ideal S10000x7 .f32 := shapeCast S10000x7 v2 shapeCasts_S10000x7_S10000x7
  have v4 : FVec Ideal S10000x7 .bf16 := truncf .bf16 v3 bitsLt_bf16_f32
  have cst : FVec Ideal S200x7 .f32 := constant S200x7 .f32 0x00000000#32
  have v5 : FVec Ideal S200x7 .f32 := matmul dot_S200x10000_S10000x7_S200x7_1_0_0_1_n_n none v1 v4 cst
  have v7 : FVec Ideal S200x7 .f32 := shapeCast S200x7 v6 shapeCasts_S200x7_S200x7
  have v8 : FVec Ideal S200x7 .f32 := addf v5 v7
  have v10 : FVec Ideal S200x7 .f32 := shapeCast S200x7 v9 shapeCasts_S200x7_S200x7
  have v12 : FVec Ideal S1x1 .f32 := shapeCast S1x1 v11 shapeCasts_S1x1_S1x1
  have v14 : FVec Ideal S1x1 .f32 := shapeCast S1x1 v13 shapeCasts_S1x1_S1x1
  have v15 : FVec Ideal S200x7 .f32 := broadcastTo S200x7 v14 broadcasts_S1x1_S200x7
  have v16 : FVec Ideal S200x7 .f32 := mulf v15 v10
  have v17 : FVec Ideal S200x7 .f32 := broadcastTo S200x7 v12 broadcasts_S1x1_S200x7
  have v18 : FVec Ideal S200x7 .f32 := mulf v17 v8
  have v19 : FVec Ideal S200x7 .f32 := addf v16 v18
  have cst_11 : Ideal .f32 := Scalar.ofBits .f32 0x3F000000#32
  have v20 : FVec Ideal S200x7 .f32 := broadcast S200x7 cst_11
  mulf v20 v19

/-- The row softmax of a block of logits: the second half of the body's arithmetic. -/
def softmaxBlk (v21 : FVec Ideal S200x7 .f32) : FVec Ideal S200x7 .f32 :=
  have v22 : FVec Ideal S200 .f32 := multiReduction .maximumf [1] S200 v21 0xFF800000#32 reduces_S200x7_S200 (.inl rfl) rfl
  have cst_13 : Ideal .f32 := Scalar.ofBits .f32 0xFF800000#32
  have v23 : FVec Ideal S200 .f32 := broadcast S200 cst_13
  have v24 : FVec Ideal S200 .f32 := maximumf v23 v22
  have v25 : FVec Ideal S200x1 .f32 := shapeCast S200x1 v24 shapeCasts_S200_S200x1
  have v26 : FVec Ideal S200x7 .f32 := broadcastTo S200x7 v25 broadcasts_S200x1_S200x7
  have v27 : FVec Ideal S200x7 .f32 := subf v21 v26
  have v28 : FVec Ideal S200x7 .f32 := exp v27
  have v29 : FVec Ideal S200 .f32 := multiReduction .add [1] S200 v28 0x00000000#32 reduces_S200x7_S200 (.inl rfl) rfl
  have v30 : FVec Ideal S200x1 .f32 := shapeCast S200x1 v29 shapeCasts_S200_S200x1
  have v31 : FVec Ideal S200x7 .f32 := broadcastTo S200x7 v30 broadcasts_S200x1_S200x7
  divf v28 v31

/-- The body's stored value is the row softmax of the block's logits. -/
theorem pay_eq (v0 : Vec Ideal S200x10000 .f32) (v2 : Vec Ideal S10000x7 .f32) (v6 : Vec Ideal S200x7 .f32) (v9 : Vec Ideal S200x7 .f32)
    (v11 : Vec Ideal S1x1 .f32) (v13 : Vec Ideal S1x1 .f32) :
    k1_pay1 v0 v2 v6 v9 v11 v13 = softmaxBlk (logitsBlk v0 v2 v6 v9 v11 v13) := rfl

/-- A length-200 vector, made a column and spread over seven columns, read at `(r, j)`, is the vector at `r`. -/
theorem col_apply (v : FVec Ideal S200 .f32) (r : Fin 200) (j : Fin 7) :
    broadcastTo S200x7 (shapeCast S200x1 v shapeCasts_S200_S200x1) broadcasts_S200x1_S200x7 (ix2 r j) = v (ix1 r) :=
  (Keepdims.broadcastTo_a1_ab_apply _ broadcasts_S200x1_S200x7 r j).trans (Keepdims.shapeCast_a_a1_apply v shapeCasts_S200_S200x1 r 0)

/-- A 1 × 1 array spread over a 200 × 7 block reads its one entry everywhere. -/
theorem scalar_apply (v : FVec Ideal S1x1 .f32) (r : Fin 200) (j : Fin 7) :
    broadcastTo S200x7 v broadcasts_S1x1_S200x7 (ix2 r j) = v (ix2 (0 : Fin 1) (0 : Fin 1)) := by
  refine broadcastTo_apply v broadcasts_S1x1_S200x7 (ix2 r j) (ix2 (0 : Fin 1) (0 : Fin 1)) fun ax => ?_
  match ax with
  | ⟨0, _⟩ => rfl
  | ⟨1, _⟩ => rfl

/-- The row top of row `r`: the fold of `max` from −∞ over the row, joined once more with −∞. -/
theorem top_apply (v : FVec Ideal S200x7 .f32) (r : Fin 200) :
    maximumf (broadcast S200 (Scalar.ofBits (F := Ideal) .f32 0xFF800000#32))
      (multiReduction .maximumf [1] S200 v 0xFF800000#32 reduces_S200x7_S200 (.inl rfl) rfl) (ix1 r)
      = Cert.Arma.rowTop fun k => v (ix2 r k) := by
  show max (Ideal.ofBits .f32 0xFF800000#32) (multiReduction .maximumf [1] S200 v 0xFF800000#32 reduces_S200x7_S200 (.inl rfl) rfl (ix1 r)) = _
  exact congrArg (max (Ideal.ofBits .f32 0xFF800000#32)) (RowReduce.rowMax_apply v 0xFF800000#32 reduces_S200x7_S200 (.inl rfl) rfl r)

/-- The softmax block at `(r, j)` is the softmax of row `r` at `j`. -/
theorem softmaxBlk_apply (v : FVec Ideal S200x7 .f32) (r : Fin 200) (j : Fin 7) :
    softmaxBlk v (ix2 r j) = Cert.Arma.smx (fun k => v (ix2 r k)) j := by
  have hexp : ∀ k : Fin 7, exp (subf v (broadcastTo S200x7 (shapeCast S200x1
      (maximumf (broadcast S200 (Scalar.ofBits (F := Ideal) .f32 0xFF800000#32))
        (multiReduction .maximumf [1] S200 v 0xFF800000#32 reduces_S200x7_S200 (.inl rfl) rfl)) shapeCasts_S200_S200x1)
      broadcasts_S200x1_S200x7)) (ix2 r k) = Ideal.exp (v (ix2 r k) - Cert.Arma.rowTop fun k => v (ix2 r k)) := fun k =>
    congrArg Ideal.exp (congrArg (v (ix2 r k) - ·) ((col_apply _ r k).trans (top_apply v r)))
  unfold softmaxBlk Cert.Arma.smx
  refine congrArg₂ Ideal.div (hexp j) ?_
  refine (col_apply _ r j).trans ?_
  refine (RowReduce.rowSum_apply _ 0x00000000#32 reduces_S200x7_S200 (.inl rfl) rfl r).trans ?_
  exact Finset.sum_congr rfl fun k _ => hexp k

/-- The logits block at `(r, j)`. -/
theorem logitsBlk_apply (v0 : Vec Ideal S200x10000 .f32) (v2 : Vec Ideal S10000x7 .f32) (v6 : Vec Ideal S200x7 .f32) (v9 : Vec Ideal S200x7 .f32)
    (v11 : Vec Ideal S1x1 .f32) (v13 : Vec Ideal S1x1 .f32) (r : Fin 200) (j : Fin 7) :
    logitsBlk v0 v2 v6 v9 v11 v13 (ix2 r j)
      = Cert.Arma.half * (v13 (ix2 (0 : Fin 1) (0 : Fin 1)) * v9 (ix2 r j)
          + v11 (ix2 (0 : Fin 1) (0 : Fin 1)) * (∑ k : Fin 10000, v0 (ix2 r k) * v2 (ix2 k j) + v6 (ix2 r j))) := by
  unfold logitsBlk
  simp only [shapeCast_self]
  rw [mulf_apply, broadcast_apply, addf_apply, mulf_apply, mulf_apply, scalar_apply, scalar_apply, addf_apply]
  rw [show matmul dot_S200x10000_S10000x7_S200x7_1_0_0_1_n_n none (truncf .bf16 v0 bitsLt_bf16_f32) (truncf .bf16 v2 bitsLt_bf16_f32)
        (constant (F := Ideal) S200x7 .f32 0x00000000#32) (ix2 r j) = ∑ k : Fin 10000, v0 (ix2 r k) * v2 (ix2 k j) from
      MatmulPlain.matmul_zero_apply (M := 200) (K := 10000) (N := 7) none _ _ (ix2 r j)]
  rfl

/-- The body's stored value at `(r, j)`: the softmax over the columns of the block's logits. -/
theorem pay_apply (v0 : Vec Ideal S200x10000 .f32) (v2 : Vec Ideal S10000x7 .f32) (v6 : Vec Ideal S200x7 .f32) (v9 : Vec Ideal S200x7 .f32)
    (v11 : Vec Ideal S1x1 .f32) (v13 : Vec Ideal S1x1 .f32) (r : Fin 200) (j : Fin 7) :
    k1_pay1 v0 v2 v6 v9 v11 v13 (ix2 r j)
      = Cert.Arma.smx (fun k => Cert.Arma.half * (v13 (ix2 (0 : Fin 1) (0 : Fin 1)) * v9 (ix2 r k)
          + v11 (ix2 (0 : Fin 1) (0 : Fin 1)) * (∑ q : Fin 10000, v0 (ix2 r q) * v2 (ix2 q k) + v6 (ix2 r k)))) j := by
  rw [pay_eq, softmaxBlk_apply]
  exact congrArg (fun z => Cert.Arma.smx z j) (funext fun k => logitsBlk_apply v0 v2 v6 v9 v11 v13 r k)

end Cert.KernelIdeal.Pass2

end
-- ==== Proof.Pass2Array.lean ====
/-
  The second streaming pass over the whole array.

  The pass runs over 50 row blocks of 200 rows.  Block `t` reads rows `200 t … 200 t + 199` of the adjacency matrix,
  of the bias and of the first convolution, and the whole right-hand side and the two scalars; it writes rows
  `200 t … 200 t + 199` of the result.  Row `p` of the result is therefore written by block `p / 200`, and the
  result array is ONE function of the arrays the pass finds: at `(p, j)` the softmax over the columns of
  `½ · (s₂ · main p + s₁ · (A p · x₂ + y₂ p))`.
-/
import proofs.«153962_j35545149341868_2_alg».proof.Proof.Gen.KernelIdeal.Frame
import proofs.«153962_j35545149341868_2_alg».proof.Proof.Pass2Point
import Idealize.ShloMosaic.Lib.Pipeline.Value

set_option maxRecDepth 16384

noncomputable section

open scoped BigOperators

namespace Cert.KernelIdeal.Pass2Arr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `r` of block `t` is row `200 t + r` of the array. -/
def row (t : Fin cfg1.N) (r : Fin 200) : Fin 10000 :=
  ⟨t.val * 200 + r.val, by have ht : t.val < 50 := t.isLt; have hr := r.isLt; omega⟩

/-- The pass's result at node `p` and column `j`: the softmax over the columns of
    `½ · (s₂ · main p + s₁ · (A p · x₂ + y₂ p))`. -/
def pass2At (A : S10000x10000.Idx → EReal) (x2 y2 mn : S10000x7.Idx → EReal) (s1 s2 : S1x1.Idx → EReal) (p : Fin 10000) (j : Fin 7) : EReal :=
  Cert.Arma.smx (fun k => Cert.Arma.half * (s2 (ix2 (0 : Fin 1) (0 : Fin 1)) * mn (ix2 p k)
      + s1 (ix2 (0 : Fin 1) (0 : Fin 1)) * (∑ q : Fin 10000, A (ix2 p q) * x2 (ix2 q k) + y2 (ix2 p k)))) j

/-- The pass's result as one function of the arrays it reads. -/
def pass2 (A : S10000x10000.Idx → EReal) (x2 y2 mn : S10000x7.Idx → EReal) (s1 s2 : S1x1.Idx → EReal) : S10000x7.Idx → EReal :=
  fun i => pass2At A x2 y2 mn s1 s2 (i 0) (i 1)

/-- The result array of the pass as one function of the arrays it finds. -/
def G1 (c : Dev nD) : S10000x7.Idx → EReal :=
  pass2 (V c main_arg1) (V c main_v20) (V c main_v21) (V c main_v19) (V c main_v22) (V c main_v23)

theorem hz : (![0, 0] : Fin 2 → Nat) = fun _ => 0 := funext fun a => by fin_cases a <;> rfl

/-- The printed index maps over the grid: the row-tiled windows are at block row `t`, the resident ones at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The adjacency block at `(r, k)` is the adjacency matrix at row `200 t + r`. -/
theorem blk0 (c : Dev nD) (t : Fin cfg1.N) (r : Fin 200) (k : Fin 10000) :
    iblk1 V c 0 t (ix2 r k) = V c main_arg1 (ix2 (row t r) k) := by
  show V c main_arg1 (((cfg1.win 0).blk t).view.emb (ix2 r k)) = _
  refine congrArg (V c main_arg1) (funext fun a => Fin.ext ?_)
  obtain ⟨e0, e1, -⟩ := idx_facts t
  match a with
  | ⟨0, _⟩ => show win1_0.index t (0 : Fin 2) * 200 + 1 * r.val = t.val * 200 + r.val; omega
  | ⟨1, _⟩ => show win1_0.index t (1 : Fin 2) * 10000 + 1 * k.val = k.val; omega

/-- The right-hand side is resident: its one block is the whole array. -/
theorem blk1 (c : Dev nD) (t : Fin cfg1.N) (q : Fin 10000) (k : Fin 7) :
    iblk1 V c 1 t (ix2 q k) = V c main_v20 (ix2 q k) := by
  show V c main_v20 (((cfg1.win 1).blk t).view.emb (ix2 q k)) = _
  refine congrArg (V c main_v20) (funext fun a => Fin.ext ?_)
  obtain ⟨-, -, e0, e1, -⟩ := idx_facts t
  match a with
  | ⟨0, _⟩ => show win1_1.index t (0 : Fin 2) * 10000 + 1 * q.val = q.val; omega
  | ⟨1, _⟩ => show win1_1.index t (1 : Fin 2) * 7 + 1 * k.val = k.val; omega

theorem blk2 (c : Dev nD) (t : Fin cfg1.N) (r : Fin 200) (k : Fin 7) :
    iblk1 V c 2 t (ix2 r k) = V c main_v21 (ix2 (row t r) k) := by
  show V c main_v21 (((cfg1.win 2).blk t).view.emb (ix2 r k)) = _
  refine congrArg (V c main_v21) (funext fun a => Fin.ext ?_)
  obtain ⟨-, -, -, -, e0, e1, -⟩ := idx_facts t
  match a with
  | ⟨0, _⟩ => show win1_2.index t (0 : Fin 2) * 200 + 1 * r.val = t.val * 200 + r.val; omega
  | ⟨1, _⟩ => show win1_2.index t (1 : Fin 2) * 7 + 1 * k.val = k.val; omega

theorem blk3 (c : Dev nD) (t : Fin cfg1.N) (r : Fin 200) (k : Fin 7) :
    iblk1 V c 3 t (ix2 r k) = V c main_v19 (ix2 (row t r) k) := by
  show V c main_v19 (((cfg1.win 3).blk t).view.emb (ix2 r k)) = _
  refine congrArg (V c main_v19) (funext fun a => Fin.ext ?_)
  obtain ⟨-, -, -, -, -, -, e0, e1, -⟩ := idx_facts t
  match a with
  | ⟨0, _⟩ => show win1_3.index t (0 : Fin 2) * 200 + 1 * r.val = t.val * 200 + r.val; omega
  | ⟨1, _⟩ => show win1_3.index t (1 : Fin 2) * 7 + 1 * k.val = k.val; omega

theorem blk4 (c : Dev nD) (t : Fin cfg1.N) :
    iblk1 V c 4 t (ix2 (0 : Fin 1) (0 : Fin 1)) = V c main_v22 (ix2 (0 : Fin 1) (0 : Fin 1)) := by
  show V c main_v22 (((cfg1.win 4).blk t).view.emb (ix2 (0 : Fin 1) (0 : Fin 1))) = _
  refine congrArg (V c main_v22) (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 1 + 1 * 0 = 0; omega

theorem blk5 (c : Dev nD) (t : Fin cfg1.N) :
    iblk1 V c 5 t (ix2 (0 : Fin 1) (0 : Fin 1)) = V c main_v23 (ix2 (0 : Fin 1) (0 : Fin 1)) := by
  show V c main_v23 (((cfg1.win 5).blk t).view.emb (ix2 (0 : Fin 1) (0 : Fin 1))) = _
  refine congrArg (V c main_v23) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 1 + 1 * 0 = 0; omega

/-- Entry `(r, j)` of the output's block `t` is entry `(200 t + r, j)` of the array. -/
theorem emb6 (t : Fin cfg1.N) (r : Fin 200) (j : Fin 7) :
    ((cfg1.win 6).blk t).view.emb (ix2 r j) = ix2 (row t r) j := by
  funext a; apply Fin.ext
  obtain ⟨-, -, -, -, -, -, -, -, -, -, -, -, e0, e1⟩ := idx_facts t
  match a with
  | ⟨0, _⟩ => show win1_6.index t (0 : Fin 2) * 200 + 1 * r.val = t.val * 200 + r.val; omega
  | ⟨1, _⟩ => show win1_6.index t (1 : Fin 2) * 7 + 1 * j.val = j.val; omega

/-- What block `t` writes back is block `t` of the one whole-array function. -/
theorem flushed_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S200x10000) hz, View.ld_unit_zero (S := S10000x7) hz, View.ld_unit_zero (S := S200x7) hz,
    View.ld_unit_zero (S := S1x1) hz]
  funext y
  obtain ⟨r, j, rfl⟩ : ∃ (r : Fin 200) (j : Fin 7), y = ix2 r j := ⟨y 0, y 1, eq_ix2 y⟩
  refine (Pass2.pay_apply (iblk1 V c 0 t) (iblk1 V c 1 t) (iblk1 V c 2 t) (iblk1 V c 3 t) (iblk1 V c 4 t) (iblk1 V c 5 t) r j).trans ?_
  show _ = G1 V c (((cfg1.win 6).blk t).view.emb (ix2 r j))
  rw [emb6]
  show _ = pass2At (V c main_arg1) (V c main_v20) (V c main_v21) (V c main_v19) (V c main_v22) (V c main_v23) (row t r) j
  unfold pass2At
  simp only [blk0, blk1, blk2, blk3, blk4, blk5]

/-- An index of the array is in block `t` iff each coordinate is in the block's range on its axis. -/
theorem mem_blk (t : Fin cfg1.N) (i : S10000x7.Idx) :
    i ∈ ((cfg1.win 6).blk t).view.set ↔ ∀ a : Fin 2, win1_6.index t a * S200x7.size a ≤ (i a).val
      ∧ (i a).val < win1_6.index t a * S200x7.size a + S200x7.size a := by
  show i ∈ ((View.whole main_v24).slice (win1_6.rect t)).set ↔ _
  rw [View.set_slice_whole, Rect.mem_set_unit]
  exact Iff.rfl

/-- The result array after the pass is the one whole-array function: row `p` is written by block `p / 200`. -/
theorem final (c : Dev nD) : (dat1 V c).arrAt 6 cfg1.N = G1 V c := by
  funext i
  have hi0 : (i 0).val < 10000 := (i 0).isLt
  have hi1 : (i 1).val < 7 := (i 1).isLt
  have htlt : (i 0).val / 200 < cfg1.N := by show _ < 50; omega
  refine (dat1 V c).arrAt_apply_of_mem 6 (G1 V c) (fun t _ => flushed_eq V c t) cfg1.N ⟨(i 0).val / 200, htlt⟩ i htlt (flush1_6 _) ?_
  rw [mem_blk]
  obtain ⟨-, -, -, -, -, -, -, -, -, -, -, -, e0, e1⟩ := idx_facts ⟨(i 0).val / 200, htlt⟩
  intro a
  match a with
  | ⟨0, _⟩ =>
    show win1_6.index ⟨(i 0).val / 200, htlt⟩ (0 : Fin 2) * 200 ≤ (i 0).val ∧ (i 0).val < win1_6.index ⟨(i 0).val / 200, htlt⟩ (0 : Fin 2) * 200 + 200
    rw [e0]; show (i 0).val / 200 * 200 ≤ (i 0).val ∧ (i 0).val < (i 0).val / 200 * 200 + 200; omega
  | ⟨1, _⟩ =>
    show win1_6.index ⟨(i 0).val / 200, htlt⟩ (1 : Fin 2) * 7 ≤ (i 1).val ∧ (i 1).val < win1_6.index ⟨(i 0).val / 200, htlt⟩ (1 : Fin 2) * 7 + 7
    rw [e1]; omega

end Cert.KernelIdeal.Pass2Arr

end
-- ==== Proof.HostTerms.lean ====
/-
  The host operations around the two streaming passes, as terms of the fourteen input arrays.

  Before the first pass: the raw features are the temporal and path features joined; four feature-times-weight
  products are packed, two by two, into the first pass's 39-column right-hand side and (with their biases) its
  39-column bias; the two 96 × 7 weight matrices are cut into their 32-row and 64-row parts; a bias vector becomes
  a row.  Between the passes: the packed result is cut into its three groups of seven columns and the two mixing
  scalars become 1 × 1 arrays.
-/
import proofs.«153962_j35545149341868_2_alg».proof.Proof.Gen.KernelIdeal
import proofs.«153962_j35545149341868_2_alg».proof.Proof.Pass1Whole
import proofs.«153962_j35545149341868_2_alg».proof.Proof.Pass2Array

noncomputable section

namespace Cert.KernelIdeal.HostTerms

open Cert.KernelIdeal Cert.KernelIdeal.Gen
open Idealize.ShloMosaic Idealize.ShloMosaic.ValueIdx

variable (T : FVec Ideal S10000x128 .f32) (A : FVec Ideal S10000x10000 .f32) (Pt : FVec Ideal S10000x64 .f32)
  (Ws1 Ws2 : FVec Ideal S128x32 .f32) (bs : FVec Ideal S32 .f32) (Wm2a Wm2b : FVec Ideal S96x7 .f32) (bm2 : FVec Ideal S7 .f32)
  (Wma Wmb : FVec Ideal S192x7 .f32) (bm : FVec Ideal S7 .f32) (v1 v2 : FVec Ideal S_ .f32)

/-- The raw features: temporal and path features joined along the columns. -/
def xin : FVec Ideal S10000x192 .f32 :=
  concatenate S10000x192 1 [⟨S10000x128, T⟩, ⟨S10000x64, Pt⟩] concatenates_S10000x128_S10000x64_S10000x192_d1

/-- The first pass's right-hand side: `T · Ws1` and `xin · Wma` joined along the columns. -/
def x1 : FVec Ideal S10000x39 .f32 :=
  concatenate S10000x39 1
    [⟨S10000x32, Host.dotGeneral (F := Ideal) dot_S10000x128_S128x32_S10000x32_1_0_0_1_n_n none T Ws1⟩,
     ⟨S10000x7, Host.dotGeneral (F := Ideal) dot_S10000x192_S192x7_S10000x7_1_0_0_1_n_n none (xin T Pt) Wma⟩]
    concatenates_S10000x32_S10000x7_S10000x39_d1

/-- The first pass's bias: `T · Ws2 + bs` and `xin · Wmb + bm` joined along the columns. -/
def y2 : FVec Ideal S10000x39 .f32 :=
  concatenate S10000x39 1
    [⟨S10000x32, addf (Host.dotGeneral (F := Ideal) dot_S10000x128_S128x32_S10000x32_1_0_0_1_n_n none T Ws2)
        (broadcastInDim S10000x32 ![0, 1] bcast_S1x32_S10000x32_0_1 (broadcastInDim S1x32 ![1] bcast_S32_S1x32_1 bs))⟩,
     ⟨S10000x7, addf (Host.dotGeneral (F := Ideal) dot_S10000x192_S192x7_S10000x7_1_0_0_1_n_n none (xin T Pt) Wmb)
        (broadcastInDim S10000x7 ![0, 1] bcast_S1x7_S10000x7_0_1 (broadcastInDim S1x7 ![1] bcast_S7_S1x7_1 bm))⟩]
    concatenates_S10000x32_S10000x7_S10000x39_d1

/-- The first 32 rows of a 96 × 7 weight matrix. -/
def top (W : FVec Ideal S96x7 .f32) : FVec Ideal S32x7 .f32 := extractStridedSlice S32x7 ![0, 0] W slices_S96x7_S32x7_0_0
/-- The last 64 rows of a 96 × 7 weight matrix. -/
def bot (W : FVec Ideal S96x7 .f32) : FVec Ideal S64x7 .f32 := extractStridedSlice S64x7 ![32, 0] W slices_S96x7_S64x7_32_0
/-- A bias vector as a row. -/
def brow : FVec Ideal S1x7 .f32 := shapeCast S1x7 bm2 shapeCasts_S7_S1x7

/-- The packed result of the first pass. -/
def pk : FVec Ideal S10000x21 .f32 :=
  Pass1Arr.packed A (x1 T Pt Ws1 Wma) (y2 T Pt Ws2 bs Wmb bm) Pt (top Wm2a) (bot Wm2a) (top Wm2b) (bot Wm2b) (brow bm2)

/-- Its columns 0–6: the main convolution. -/
def mn : FVec Ideal S10000x7 .f32 :=
  extractStridedSlice S10000x7 ![0, 0] (pk T A Pt Ws1 Ws2 bs Wm2a Wm2b bm2 Wma Wmb bm) slices_S10000x21_S10000x7_0_0
/-- Its columns 7–13: the second pass's right-hand side. -/
def x2 : FVec Ideal S10000x7 .f32 :=
  extractStridedSlice S10000x7 ![0, 7] (pk T A Pt Ws1 Ws2 bs Wm2a Wm2b bm2 Wma Wmb bm) slices_S10000x21_S10000x7_0_7
/-- Its columns 14–20: the second pass's bias. -/
def y2b : FVec Ideal S10000x7 .f32 :=
  extractStridedSlice S10000x7 ![0, 14] (pk T A Pt Ws1 Ws2 bs Wm2a Wm2b bm2 Wma Wmb bm) slices_S10000x21_S10000x7_0_14
/-- A scalar as a 1 × 1 array. -/
def sc (v : FVec Ideal S_ .f32) : FVec Ideal S1x1 .f32 := shapeCast S1x1 v shapeCasts_S_S1x1

/-- The kernel's result as a term of the input arrays: the second pass on the cuts of the first pass's result. -/
def result : FVec Ideal S10000x7 .f32 :=
  Pass2Arr.pass2 A (x2 T A Pt Ws1 Ws2 bs Wm2a Wm2b bm2 Wma Wmb bm) (y2b T A Pt Ws1 Ws2 bs Wm2a Wm2b bm2 Wma Wmb bm)
    (mn T A Pt Ws1 Ws2 bs Wm2a Wm2b bm2 Wma Wmb bm) (sc v1) (sc v2)

end Cert.KernelIdeal.HostTerms

end
-- ==== Proof.KernelValue.lean ====
/-
  The idealized kernel's result array as a term of the launch arrays.

  The fold through @main's four segments is read backwards from the result: the second pass's write-backs leave
  its one whole-array function of the arrays it finds; those arrays are three column cuts of the first pass's
  packed result and two reshaped scalars (the host operations between the passes) and the adjacency matrix,
  unchanged; the first pass's packed result is its one whole-array function of the arrays IT finds, which the host
  operations before it computed from the launch arrays.
-/
import proofs.«153962_j35545149341868_2_alg».proof.Proof.Gen.KernelIdeal.Frame
import proofs.«153962_j35545149341868_2_alg».proof.Proof.Pass1Array
import proofs.«153962_j35545149341868_2_alg».proof.Proof.Pass2Array
import proofs.«153962_j35545149341868_2_alg».proof.Proof.HostTerms

set_option maxRecDepth 16384

noncomputable section

namespace Cert.KernelIdeal.KernelValue

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

/-! ## What the first pass finds: the host operations before it -/

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_v3 (c : Dev nD) : V1 m ρ c main_v3 = HostTerms.x1 (m ((c : Thread nD τ).loc main_arg0)) (m ((c : Thread nD τ).loc main_arg2))
    (m ((c : Thread nD τ).loc main_arg3)) (m ((c : Thread nD τ).loc main_arg9)) := by
  show StableHlo.after hostOps0 (W0 m ρ c) (Proc.devRef .tc main_v3) = _
  after_results; rfl

theorem V1_v12 (c : Dev nD) : V1 m ρ c main_v12 = HostTerms.y2 (m ((c : Thread nD τ).loc main_arg0)) (m ((c : Thread nD τ).loc main_arg2))
    (m ((c : Thread nD τ).loc main_arg4)) (m ((c : Thread nD τ).loc main_arg5)) (m ((c : Thread nD τ).loc main_arg10))
    (m ((c : Thread nD τ).loc main_arg11)) := by
  show StableHlo.after hostOps0 (W0 m ρ c) (Proc.devRef .tc main_v12) = _
  after_results; rfl

theorem V1_v13 (c : Dev nD) : V1 m ρ c main_v13 = HostTerms.top (m ((c : Thread nD τ).loc main_arg6)) := by
  show StableHlo.after hostOps0 (W0 m ρ c) (Proc.devRef .tc main_v13) = _
  after_results; rfl

theorem V1_v14 (c : Dev nD) : V1 m ρ c main_v14 = HostTerms.bot (m ((c : Thread nD τ).loc main_arg6)) := by
  show StableHlo.after hostOps0 (W0 m ρ c) (Proc.devRef .tc main_v14) = _
  after_results; rfl

theorem V1_v15 (c : Dev nD) : V1 m ρ c main_v15 = HostTerms.top (m ((c : Thread nD τ).loc main_arg7)) := by
  show StableHlo.after hostOps0 (W0 m ρ c) (Proc.devRef .tc main_v15) = _
  after_results; rfl

theorem V1_v16 (c : Dev nD) : V1 m ρ c main_v16 = HostTerms.bot (m ((c : Thread nD τ).loc main_arg7)) := by
  show StableHlo.after hostOps0 (W0 m ρ c) (Proc.devRef .tc main_v16) = _
  after_results; rfl

theorem V1_v17 (c : Dev nD) : V1 m ρ c main_v17 = HostTerms.brow (m ((c : Thread nD τ).loc main_arg8)) := by
  show StableHlo.after hostOps0 (W0 m ρ c) (Proc.devRef .tc main_v17) = _
  after_results; rfl

theorem V1_arg12 (c : Dev nD) : V1 m ρ c main_arg12 = m ((c : Thread nD τ).loc main_arg12) := by
  show StableHlo.after hostOps0 (W0 m ρ c) (Proc.devRef .tc main_arg12) = _
  after_results

theorem V1_arg13 (c : Dev nD) : V1 m ρ c main_arg13 = m ((c : Thread nD τ).loc main_arg13) := by
  show StableHlo.after hostOps0 (W0 m ρ c) (Proc.devRef .tc main_arg13) = _
  after_results

/-! ## What the first pass leaves -/

/-- The packed array after the first pass, as a term of the launch arrays. -/
theorem W2_packed (c : Dev nD) :
    W2 m ρ c (Proc.devRef .tc main_v18) = HostTerms.pk (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  refine (W2_arr m ρ c 9).trans ((Pass1Arr.final (V1 m ρ) c).trans ?_)
  unfold Pass1Arr.G0 HostTerms.pk
  rw [V1_arg1, V1_arg2, V1_v3, V1_v12, V1_v13, V1_v14, V1_v15, V1_v16, V1_v17]

/-- The adjacency matrix is an input of the first pass: it leaves it as it found it. -/
theorem W2_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (V1_arg1 m ρ c)

/-- The mixing scalars are not arrays of the first pass: it does not touch them. -/
theorem W2_arg12 (c : Dev nD) : W2 m ρ c (Proc.devRef .tc main_arg12) = m ((c : Thread nD τ).loc main_arg12) :=
  (W2_of_ne m ρ c main_arg12 (by decide)).trans (V1_arg12 m ρ c)

theorem W2_arg13 (c : Dev nD) : W2 m ρ c (Proc.devRef .tc main_arg13) = m ((c : Thread nD τ).loc main_arg13) :=
  (W2_of_ne m ρ c main_arg13 (by decide)).trans (V1_arg13 m ρ c)

/-! ## What the second pass finds: the host operations between the passes -/

theorem V3_arg1 (c : Dev nD) : V3 m ρ c main_arg1 = m ((c : Thread nD τ).loc main_arg1) := by
  show StableHlo.after hostOps1 (W2 m ρ c) (Proc.devRef .tc main_arg1) = _
  after_results
  exact W2_arg1 m ρ c

theorem V3_v19 (c : Dev nD) : V3 m ρ c main_v19 = HostTerms.mn (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  show StableHlo.after hostOps1 (W2 m ρ c) (Proc.devRef .tc main_v19) = _
  after_results
  rw [W2_packed]
  rfl

theorem V3_v20 (c : Dev nD) : V3 m ρ c main_v20 = HostTerms.x2 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  show StableHlo.after hostOps1 (W2 m ρ c) (Proc.devRef .tc main_v20) = _
  after_results
  rw [W2_packed]
  rfl

theorem V3_v21 (c : Dev nD) : V3 m ρ c main_v21 = HostTerms.y2b (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  show StableHlo.after hostOps1 (W2 m ρ c) (Proc.devRef .tc main_v21) = _
  after_results
  rw [W2_packed]
  rfl

theorem V3_v22 (c : Dev nD) : V3 m ρ c main_v22 = HostTerms.sc (m ((c : Thread nD τ).loc main_arg12)) := by
  show StableHlo.after hostOps1 (W2 m ρ c) (Proc.devRef .tc main_v22) = _
  after_results
  rw [W2_arg12]
  rfl

theorem V3_v23 (c : Dev nD) : V3 m ρ c main_v23 = HostTerms.sc (m ((c : Thread nD τ).loc main_arg13)) := by
  show StableHlo.after hostOps1 (W2 m ρ c) (Proc.devRef .tc main_v23) = _
  after_results
  rw [W2_arg13]
  rfl

/-! ## The result -/

/-- The result array at the end of the fold is the second pass on the cuts of the first pass's packed result, all
    as terms of the launch arrays. -/
theorem W4_result (c : Dev nD) :
    W4 m ρ c (Proc.devRef .tc main_v24) = HostTerms.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11))
      (m ((c : Thread nD τ).loc main_arg12)) (m ((c : Thread nD τ).loc main_arg13)) := by
  refine (W4_arr m ρ c 6).trans ((Pass2Arr.final (V3 m ρ) c).trans ?_)
  unfold Pass2Arr.G1 HostTerms.result
  rw [V3_arg1, V3_v20, V3_v21, V3_v19, V3_v22, V3_v23]

end Cert.KernelIdeal.KernelValue

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«153962_j35545149341868_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.KernelMath.lean ====
/-
  The kernel's result as a term of the fourteen input arrays, read entry by entry, is the row softmax of the logits
  in the grouping where each bias is joined to its own product first and the contraction over the 96 joined channels
  is a 32-term sum plus a 64-term sum.

  Every step reads a layout operation at an entry: a column join is the case split of the column index into its two
  ranges, a cut along an axis reads the source at the shifted coordinate, a vector made a row (or a scalar made a
  1 × 1 array) keeps its entries, a broadcast bias is the bias at the column, and a matrix product is the
  row-by-column sum.
-/
import proofs.«153962_j35545149341868_2_alg».proof.Proof.HostTerms
import proofs.«153962_j35545149341868_2_alg».proof.Proof.Arrays
import proofs.«153962_j35545149341868_2_alg».proof.Proof.LibConcatCols
import proofs.«153962_j35545149341868_2_alg».proof.Proof.LibHostDotPlain
import Idealize.ShloMosaic.Lib.ValueLayout
import Idealize.ShloMosaic.Lib.Pipeline.Value
import Idealize.ShloMosaic.Lib.ValueIdx

noncomputable section

open scoped BigOperators

namespace Cert.KernelIdeal.KernelMath

open Cert.KernelIdeal Cert.KernelIdeal.Gen Cert.KernelIdeal.Pass1Arr Cert.KernelIdeal.Pass2Arr Cert.Arma
open Idealize.ShloMosaic Idealize.ShloMosaic.ValueIdx

variable (T : FVec Ideal S10000x128 .f32) (A : FVec Ideal S10000x10000 .f32) (Pt : FVec Ideal S10000x64 .f32)
  (Ws1 Ws2 : FVec Ideal S128x32 .f32) (bs : FVec Ideal S32 .f32) (Wm2a Wm2b : FVec Ideal S96x7 .f32) (bm2 : FVec Ideal S7 .f32)
  (Wma Wmb : FVec Ideal S192x7 .f32) (bm : FVec Ideal S7 .f32) (v1 v2 : FVec Ideal S_ .f32)

/-! ## The small layout operations -/

/-- A scalar made a 1 × 1 array keeps its value. -/
theorem sc_at (v : FVec Ideal S_ .f32) : HostTerms.sc v (ix2 (0 : Fin 1) (0 : Fin 1)) = v ix0 :=
  shapeCast_apply v shapeCasts_S_S1x1 (ix2 (0 : Fin 1) (0 : Fin 1)) ix0 (by
    rw [Shape.rowMajor_val_two]
    exact Shape.rowMajorPi_zero _ _)

/-- A bias vector made a row keeps its entries. -/
theorem brow_at (k : Fin 7) : HostTerms.brow bm2 (ix2 (0 : Fin 1) k) = fb bm2 k :=
  shapeCast_a_1a_apply bm2 shapeCasts_S7_S1x7 (0 : Fin 1) k

/-- The first 32 rows of a 96 × 7 weight matrix. -/
theorem top_at (W : FVec Ideal S96x7 .f32) (c : Fin 32) (k : Fin 7) :
    HostTerms.top W (ix2 c k) = fw96 W (Fin.castAdd 64 c) k :=
  slice2_axis0_apply 0 W slices_S96x7_S32x7_0_0 c k (Fin.castAdd 64 c) (Nat.zero_add _).symm

/-- The last 64 rows of a 96 × 7 weight matrix. -/
theorem bot_at (W : FVec Ideal S96x7 .f32) (c : Fin 64) (k : Fin 7) :
    HostTerms.bot W (ix2 c k) = fw96 W (Fin.natAdd 32 c) k :=
  slice2_axis0_apply 32 W slices_S96x7_S64x7_32_0 c k (Fin.natAdd 32 c) rfl

/-- A bias of 32 channels, broadcast over the nodes. -/
theorem bias32_at (q : Fin 10000) (c : Fin 32) :
    broadcastInDim S10000x32 ![0, 1] bcast_S1x32_S10000x32_0_1 (broadcastInDim S1x32 ![1] bcast_S32_S1x32_1 bs) (ix2 q c) = fb bs c :=
  (broadcastInDim_apply _ bcast_S1x32_S10000x32_0_1 (broadcastInDim S1x32 ![1] bcast_S32_S1x32_1 bs) (ix2 q c) (ix2 (0 : Fin 1) c)
    (fun a => by
      match a with
      | ⟨0, _⟩ => show (0 : Nat) = if (1 : Nat) = 1 then 0 else q.val; rw [if_pos rfl]
      | ⟨1, _⟩ => show c.val = if (32 : Nat) = 1 then 0 else c.val; rw [if_neg (by decide)])).trans
    (broadcastInDim_apply _ bcast_S32_S1x32_1 bs (ix2 (0 : Fin 1) c) (ix1 c)
      (fun a => by
        match a with
        | ⟨0, _⟩ => show c.val = if (32 : Nat) = 1 then 0 else c.val; rw [if_neg (by decide)]))

/-- A bias of seven channels, broadcast over the nodes. -/
theorem bias7_at (q : Fin 10000) (k : Fin 7) :
    broadcastInDim S10000x7 ![0, 1] bcast_S1x7_S10000x7_0_1 (broadcastInDim S1x7 ![1] bcast_S7_S1x7_1 bm) (ix2 q k) = fb bm k :=
  (broadcastInDim_apply _ bcast_S1x7_S10000x7_0_1 (broadcastInDim S1x7 ![1] bcast_S7_S1x7_1 bm) (ix2 q k) (ix2 (0 : Fin 1) k)
    (fun a => by
      match a with
      | ⟨0, _⟩ => show (0 : Nat) = if (1 : Nat) = 1 then 0 else q.val; rw [if_pos rfl]
      | ⟨1, _⟩ => show k.val = if (7 : Nat) = 1 then 0 else k.val; rw [if_neg (by decide)])).trans
    (broadcastInDim_apply _ bcast_S7_S1x7_1 bm (ix2 (0 : Fin 1) k) (ix1 k)
      (fun a => by
        match a with
        | ⟨0, _⟩ => show k.val = if (7 : Nat) = 1 then 0 else k.val; rw [if_neg (by decide)]))

/-! ## The first pass's right-hand side and bias -/

/-- The raw features of a node: its temporal features, then its path features. -/
theorem xin_at (q : Fin 10000) (c : Fin 192) : HostTerms.xin T Pt (ix2 q c) = fx T Pt q c :=
  ConcatCols.concat_cols_apply (n := 10000) (a := 128) (b := 64) T Pt concatenates_S10000x128_S10000x64_S10000x192_d1 q c

/-- The raw features times a 192 × 7 weight matrix. -/
theorem xinW_at (W : FVec Ideal S192x7 .f32) (q : Fin 10000) (k : Fin 7) :
    Host.dotGeneral (F := Ideal) dot_S10000x192_S192x7_S10000x7_1_0_0_1_n_n none (HostTerms.xin T Pt) W (ix2 q k) = fxw T Pt W q k :=
  (HostDotPlain.dotGeneral_apply (M := 10000) (K := 192) (N := 7) none (HostTerms.xin T Pt) W (ix2 q k)).trans
    (Finset.sum_congr rfl fun c _ => congrArg (· * W (ix2 c k)) (xin_at T Pt q c))

/-- The temporal features times a 128 × 32 weight matrix. -/
theorem tW_at (W : FVec Ideal S128x32 .f32) (q : Fin 10000) (c : Fin 32) :
    Host.dotGeneral (F := Ideal) dot_S10000x128_S128x32_S10000x32_1_0_0_1_n_n none T W (ix2 q c) = ftw T W q c :=
  HostDotPlain.dotGeneral_apply (M := 10000) (K := 128) (N := 32) none T W (ix2 q c)

/-- The right-hand side at one of its first 32 columns. -/
theorem x1_left (q : Fin 10000) (c : Fin 32) : HostTerms.x1 T Pt Ws1 Wma (ix2 q (Fin.castAdd 7 c)) = ftw T Ws1 q c :=
  (ConcatCols.concat_cols_apply (n := 10000) (a := 32) (b := 7)
      (Host.dotGeneral (F := Ideal) dot_S10000x128_S128x32_S10000x32_1_0_0_1_n_n none T Ws1)
      (Host.dotGeneral (F := Ideal) dot_S10000x192_S192x7_S10000x7_1_0_0_1_n_n none (HostTerms.xin T Pt) Wma)
      concatenates_S10000x32_S10000x7_S10000x39_d1 q (Fin.castAdd 7 c)).trans
    ((Fin.addCases_left c).trans (tW_at T Ws1 q c))

/-- The right-hand side at one of its last seven columns. -/
theorem x1_right (q : Fin 10000) (k : Fin 7) : HostTerms.x1 T Pt Ws1 Wma (ix2 q (Fin.natAdd 32 k)) = fxw T Pt Wma q k :=
  (ConcatCols.concat_cols_apply (n := 10000) (a := 32) (b := 7)
      (Host.dotGeneral (F := Ideal) dot_S10000x128_S128x32_S10000x32_1_0_0_1_n_n none T Ws1)
      (Host.dotGeneral (F := Ideal) dot_S10000x192_S192x7_S10000x7_1_0_0_1_n_n none (HostTerms.xin T Pt) Wma)
      concatenates_S10000x32_S10000x7_S10000x39_d1 q (Fin.natAdd 32 k)).trans
    ((Fin.addCases_right k).trans (xinW_at T Pt Wma q k))

/-- The bias at one of its first 32 columns. -/
theorem y2_left (q : Fin 10000) (c : Fin 32) :
    HostTerms.y2 T Pt Ws2 bs Wmb bm (ix2 q (Fin.castAdd 7 c)) = ftw T Ws2 q c + fb bs c :=
  (ConcatCols.concat_cols_apply (n := 10000) (a := 32) (b := 7)
      (addf (Host.dotGeneral (F := Ideal) dot_S10000x128_S128x32_S10000x32_1_0_0_1_n_n none T Ws2)
        (broadcastInDim S10000x32 ![0, 1] bcast_S1x32_S10000x32_0_1 (broadcastInDim S1x32 ![1] bcast_S32_S1x32_1 bs)))
      (addf (Host.dotGeneral (F := Ideal) dot_S10000x192_S192x7_S10000x7_1_0_0_1_n_n none (HostTerms.xin T Pt) Wmb)
        (broadcastInDim S10000x7 ![0, 1] bcast_S1x7_S10000x7_0_1 (broadcastInDim S1x7 ![1] bcast_S7_S1x7_1 bm)))
      concatenates_S10000x32_S10000x7_S10000x39_d1 q (Fin.castAdd 7 c)).trans
    ((Fin.addCases_left c).trans (congrArg₂ (· + ·) (tW_at T Ws2 q c) (bias32_at bs q c)))

/-- The bias at one of its last seven columns. -/
theorem y2_right (q : Fin 10000) (k : Fin 7) :
    HostTerms.y2 T Pt Ws2 bs Wmb bm (ix2 q (Fin.natAdd 32 k)) = fxw T Pt Wmb q k + fb bm k :=
  (ConcatCols.concat_cols_apply (n := 10000) (a := 32) (b := 7)
      (addf (Host.dotGeneral (F := Ideal) dot_S10000x128_S128x32_S10000x32_1_0_0_1_n_n none T Ws2)
        (broadcastInDim S10000x32 ![0, 1] bcast_S1x32_S10000x32_0_1 (broadcastInDim S1x32 ![1] bcast_S32_S1x32_1 bs)))
      (addf (Host.dotGeneral (F := Ideal) dot_S10000x192_S192x7_S10000x7_1_0_0_1_n_n none (HostTerms.xin T Pt) Wmb)
        (broadcastInDim S10000x7 ![0, 1] bcast_S1x7_S10000x7_0_1 (broadcastInDim S1x7 ![1] bcast_S7_S1x7_1 bm)))
      concatenates_S10000x32_S10000x7_S10000x39_d1 q (Fin.natAdd 32 k)).trans
    ((Fin.addCases_right k).trans (congrArg₂ (· + ·) (xinW_at T Pt Wmb q k) (bias7_at bm q k)))

/-! ## The first pass's accumulator and projections -/

/-- The accumulator at one of its last seven columns: the main convolution, bias joined to its product first. -/
theorem acc_main (p : Fin 10000) (k : Fin 7) : accW A (HostTerms.x1 T Pt Ws1 Wma) (HostTerms.y2 T Pt Ws2 bs Wmb bm) p (Fin.natAdd 32 k) = mainK (fa A) (fxw T Pt Wma) (fxw T Pt Wmb) (fb bm) p k :=
  congrArg₂ (· + ·)
    (Finset.sum_congr rfl fun q _ => congrArg (A (ix2 p q) * ·) (x1_right T Pt Ws1 Wma q k))
    (y2_right T Pt Ws2 bs Wmb bm p k)

/-- The accumulator at one of its first 32 columns, cut off below at zero: a ReLU channel. -/
theorem acc_sec (q : Fin 10000) (c : Fin 32) : max (accW A (HostTerms.x1 T Pt Ws1 Wma) (HostTerms.y2 T Pt Ws2 bs Wmb bm) q (Fin.castAdd 7 c)) 0 = secK (fa A) (ftw T Ws1) (ftw T Ws2) (fb bs) q c :=
  congrArg (max · 0) (congrArg₂ (· + ·)
    (Finset.sum_congr rfl fun q' _ => congrArg (A (ix2 q q') * ·) (x1_left T Pt Ws1 Wma q' c))
    (y2_left T Pt Ws2 bs Wmb bm q c))

/-- The ReLU channels and the path features against the two parts of a 96 × 7 weight matrix: the split contraction. -/
theorem proj_at (W : FVec Ideal S96x7 .f32) (q : Fin 10000) (k : Fin 7) : projW A (HostTerms.x1 T Pt Ws1 Wma) (HostTerms.y2 T Pt Ws2 bs Wmb bm) Pt (HostTerms.top W) (HostTerms.bot W) q k = projSplit (fpath Pt) (secK (fa A) (ftw T Ws1) (ftw T Ws2) (fb bs)) (fw96 W) q k :=
  congrArg₂ (· + ·)
    (Finset.sum_congr rfl fun c _ => congrArg₂ (· * ·) (acc_sec T A Pt Ws1 Ws2 bs Wma Wmb bm q c) (top_at W c k))
    (Finset.sum_congr rfl fun c _ => congrArg (Pt (ix2 q c) * ·) (bot_at W c k))

/-! ## The packed result at each of its three column groups -/

/-- The packed result at one of its first seven columns is the accumulator's matching one of its last seven. -/
theorem packedAt_first (M : S10000x10000.Idx → EReal) (x y : S10000x39.Idx → EReal) (P : S10000x64.Idx → EReal)
    (wa32 : S32x7.Idx → EReal) (wa64 : S64x7.Idx → EReal) (wb32 : S32x7.Idx → EReal) (wb64 : S64x7.Idx → EReal)
    (b : S1x7.Idx → EReal) (p : Fin 10000) (k : Fin 7) :
    packedAt M x y P wa32 wa64 wb32 wb64 b p (Fin.castAdd (7 + 7) k) = accW M x y p (Fin.natAdd 32 k) := by
  unfold packedAt
  rw [Fin.addCases_left]

/-- The packed result at one of its middle seven columns is the projection against the first weight pair. -/
theorem packedAt_second (M : S10000x10000.Idx → EReal) (x y : S10000x39.Idx → EReal) (P : S10000x64.Idx → EReal)
    (wa32 : S32x7.Idx → EReal) (wa64 : S64x7.Idx → EReal) (wb32 : S32x7.Idx → EReal) (wb64 : S64x7.Idx → EReal)
    (b : S1x7.Idx → EReal) (p : Fin 10000) (k : Fin 7) :
    packedAt M x y P wa32 wa64 wb32 wb64 b p (Fin.natAdd 7 (Fin.castAdd 7 k)) = projW M x y P wa32 wa64 p k := by
  unfold packedAt
  rw [Fin.addCases_right, Fin.addCases_left]

/-- The packed result at one of its last seven columns is the projection against the second weight pair, plus the
    bias row. -/
theorem packedAt_third (M : S10000x10000.Idx → EReal) (x y : S10000x39.Idx → EReal) (P : S10000x64.Idx → EReal)
    (wa32 : S32x7.Idx → EReal) (wa64 : S64x7.Idx → EReal) (wb32 : S32x7.Idx → EReal) (wb64 : S64x7.Idx → EReal)
    (b : S1x7.Idx → EReal) (p : Fin 10000) (k : Fin 7) :
    packedAt M x y P wa32 wa64 wb32 wb64 b p (Fin.natAdd 7 (Fin.natAdd 7 k))
      = projW M x y P wb32 wb64 p k + b (ix2 (0 : Fin 1) k) := by
  unfold packedAt
  rw [Fin.addCases_right, Fin.addCases_right]

/-! ## The three cuts of the packed result -/

/-- Columns 0–6 of the packed result: the main convolution. -/
theorem mn_at (p : Fin 10000) (k : Fin 7) : HostTerms.mn T A Pt Ws1 Ws2 bs Wm2a Wm2b bm2 Wma Wmb bm (ix2 p k) = mainK (fa A) (fxw T Pt Wma) (fxw T Pt Wmb) (fb bm) p k :=
  (slice2_axis1_apply 0 (HostTerms.pk T A Pt Ws1 Ws2 bs Wm2a Wm2b bm2 Wma Wmb bm) slices_S10000x21_S10000x7_0_0 p k (Fin.castAdd (7 + 7) k) (Nat.zero_add _).symm).trans
    ((packedAt_first A (HostTerms.x1 T Pt Ws1 Wma) (HostTerms.y2 T Pt Ws2 bs Wmb bm) Pt (HostTerms.top Wm2a) (HostTerms.bot Wm2a) (HostTerms.top Wm2b) (HostTerms.bot Wm2b) (HostTerms.brow bm2) p k).trans (acc_main T A Pt Ws1 Ws2 bs Wma Wmb bm p k))

/-- Columns 7–13 of the packed result: the split contraction against the first 96 × 7 weight matrix. -/
theorem x2_at (q : Fin 10000) (k : Fin 7) : HostTerms.x2 T A Pt Ws1 Ws2 bs Wm2a Wm2b bm2 Wma Wmb bm (ix2 q k) = projSplit (fpath Pt) (secK (fa A) (ftw T Ws1) (ftw T Ws2) (fb bs)) (fw96 Wm2a) q k :=
  (slice2_axis1_apply 7 (HostTerms.pk T A Pt Ws1 Ws2 bs Wm2a Wm2b bm2 Wma Wmb bm) slices_S10000x21_S10000x7_0_7 q k (Fin.natAdd 7 (Fin.castAdd 7 k)) rfl).trans
    ((packedAt_second A (HostTerms.x1 T Pt Ws1 Wma) (HostTerms.y2 T Pt Ws2 bs Wmb bm) Pt (HostTerms.top Wm2a) (HostTerms.bot Wm2a) (HostTerms.top Wm2b) (HostTerms.bot Wm2b) (HostTerms.brow bm2) q k).trans (proj_at T A Pt Ws1 Ws2 bs Wma Wmb bm Wm2a q k))

/-- Columns 14–20 of the packed result: the split contraction against the second 96 × 7 weight matrix, plus its bias. -/
theorem y2b_at (p : Fin 10000) (k : Fin 7) :
    HostTerms.y2b T A Pt Ws1 Ws2 bs Wm2a Wm2b bm2 Wma Wmb bm (ix2 p k) = projSplit (fpath Pt) (secK (fa A) (ftw T Ws1) (ftw T Ws2) (fb bs)) (fw96 Wm2b) p k + fb bm2 k :=
  (slice2_axis1_apply 14 (HostTerms.pk T A Pt Ws1 Ws2 bs Wm2a Wm2b bm2 Wma Wmb bm) slices_S10000x21_S10000x7_0_14 p k (Fin.natAdd 7 (Fin.natAdd 7 k))
      (by show 7 + (7 + k.val) = 14 + k.val; omega)).trans
    ((packedAt_third A (HostTerms.x1 T Pt Ws1 Wma) (HostTerms.y2 T Pt Ws2 bs Wmb bm) Pt (HostTerms.top Wm2a) (HostTerms.bot Wm2a) (HostTerms.top Wm2b) (HostTerms.bot Wm2b) (HostTerms.brow bm2) p k).trans
      (congrArg₂ (· + ·) (proj_at T A Pt Ws1 Ws2 bs Wma Wmb bm Wm2b p k) (brow_at bm2 k)))

/-! ## The whole result -/

/-- A logit as the second pass forms it is the logit of the first grouping. -/
theorem logit_at (p : Fin 10000) (k : Fin 7) :
    half * (HostTerms.sc v2 (ix2 (0 : Fin 1) (0 : Fin 1)) * HostTerms.mn T A Pt Ws1 Ws2 bs Wm2a Wm2b bm2 Wma Wmb bm (ix2 p k)
        + HostTerms.sc v1 (ix2 (0 : Fin 1) (0 : Fin 1))
          * (∑ q : Fin 10000, A (ix2 p q) * HostTerms.x2 T A Pt Ws1 Ws2 bs Wm2a Wm2b bm2 Wma Wmb bm (ix2 q k) + HostTerms.y2b T A Pt Ws1 Ws2 bs Wm2a Wm2b bm2 Wma Wmb bm (ix2 p k)))
      = logitsK T A Pt Ws1 Ws2 bs Wm2a Wm2b bm2 Wma Wmb bm v1 v2 p k :=
  congrArg (half * ·) (congrArg₂ (· + ·)
    (congrArg₂ (· * ·) (sc_at v2) (mn_at T A Pt Ws1 Ws2 bs Wm2a Wm2b bm2 Wma Wmb bm p k))
    (congrArg₂ (· * ·) (sc_at v1) (congrArg₂ (· + ·)
      (Finset.sum_congr rfl fun q _ => congrArg (A (ix2 p q) * ·) (x2_at T A Pt Ws1 Ws2 bs Wm2a Wm2b bm2 Wma Wmb bm q k))
      (y2b_at T A Pt Ws1 Ws2 bs Wm2a Wm2b bm2 Wma Wmb bm p k))))

/-- The kernel's result array is the row softmax of the logits in the first grouping. -/
theorem kernel_math :
    Cert.KernelIdeal.HostTerms.result T A Pt Ws1 Ws2 bs Wm2a Wm2b bm2 Wma Wmb bm v1 v2 = Cert.Arma.outK T A Pt Ws1 Ws2 bs Wm2a Wm2b bm2 Wma Wmb bm v1 v2 := by
  funext i
  obtain ⟨p, j, rfl⟩ : ∃ (p : Fin 10000) (j : Fin 7), i = ix2 p j := ⟨i 0, i 1, eq_ix2 i⟩
  exact congrArg (fun z : Fin 7 → EReal => smx z j) (funext fun k => logit_at T A Pt Ws1 Ws2 bs Wm2a Wm2b bm2 Wma Wmb bm v1 v2 p k)

end Cert.KernelIdeal.KernelMath

end
-- ==== Proof.RefValue.lean ====
/-
  The reference program's result, read entry by entry, is the row softmax of the logits in the grouping where each
  bias is added last and the contraction over the 96 joined channels is one sum.

  Each stage of the program is read at an entry (p, c): a matrix product is the row-by-column sum, a broadcast bias
  is the bias at the column, the ReLU is the maximum with zero, a column join is the case split of the column index
  into its two ranges, the row maximum is the fold of max from −∞, and the row sum is the sum started at zero.
-/
import proofs.«153962_j35545149341868_2_alg».proof.Proof.Gen.ReferenceIdeal.Read
import proofs.«153962_j35545149341868_2_alg».proof.Proof.Arrays
import proofs.«153962_j35545149341868_2_alg».proof.Proof.LibConcatCols
import proofs.«153962_j35545149341868_2_alg».proof.Proof.LibHostDotPlain

noncomputable section

open scoped BigOperators

namespace Cert.ReferenceIdeal.RefValue

open Cert.ReferenceIdeal Cert.ReferenceIdeal.Gen Cert.ReferenceIdeal.Read Cert.Arma
open Idealize.ShloMosaic Idealize.ShloMosaic.ValueIdx Idealize.ShloMosaic.TcCoe Idealize.SL.Sem

variable (x0 : Mat 10000 128) (x1 : Mat 10000 10000) (x2 : Mat 10000 64) (x3 x4 : Mat 128 32) (x5 : Vc 32)
  (x6 x7 : Mat 96 7) (x8 : Vc 7) (x9 x10 : Mat 192 7) (x11 : Vc 7) (x12 x13 : Sc)

/-! ## The ReLU channels -/

/-- The temporal features times the first weight matrix. -/
theorem v0_at (p : Fin 10000) (c : Fin 32) : val_main_v0 (F := Ideal) x0 x3 (ix2 p c) = ftw x0 x3 p c :=
  HostDotPlain.dotGeneral_apply (M := 10000) (K := 128) (N := 32) none x0 x3 (ix2 p c)

/-- The adjacency matrix applied to that product. -/
theorem v1_at (p : Fin 10000) (c : Fin 32) :
    val_main_v1 (F := Ideal) x0 x1 x3 (ix2 p c) = ∑ k, fa x1 p k * ftw x0 x3 k c :=
  (HostDotPlain.dotGeneral_apply (M := 10000) (K := 10000) (N := 32) none x1 (val_main_v0 (F := Ideal) x0 x3) (ix2 p c)).trans
    (Finset.sum_congr rfl fun k _ => congrArg (x1 (ix2 p k) * ·) (v0_at x0 x3 k c))

/-- The temporal features times the second weight matrix. -/
theorem v2_at (p : Fin 10000) (c : Fin 32) : val_main_v2 (F := Ideal) x0 x4 (ix2 p c) = ftw x0 x4 p c :=
  HostDotPlain.dotGeneral_apply (M := 10000) (K := 128) (N := 32) none x0 x4 (ix2 p c)

/-- The bias of the ReLU channels, broadcast over the nodes. -/
theorem v5_at (p : Fin 10000) (c : Fin 32) : val_main_v5 (F := Ideal) x5 (ix2 p c) = fb x5 c :=
  (val_main_v5_apply (F := Ideal) x5 (ix2 p c)).trans ((val_main_v4_apply (F := Ideal) x5 _).trans
    (congrArg x5 (funext fun a => by match a with | ⟨0, _⟩ => rfl)))

/-- The ReLU's zero. -/
theorem relu0_at (i : S10000x32.Idx) : val_main_call0_v0 (F := Ideal) i = 0 :=
  (val_main_call0_v0_apply (F := Ideal) i).trans Ideal.ofBits_zero_f32

/-- The ReLU channels, bias added last. -/
theorem v7_at (p : Fin 10000) (c : Fin 32) :
    val_main_v7 (F := Ideal) x0 x1 x3 x4 x5 (ix2 p c) = secR (fa x1) (ftw x0 x3) (ftw x0 x4) (fb x5) p c := by
  show max ((val_main_v1 (F := Ideal) x0 x1 x3 (ix2 p c) + val_main_v2 (F := Ideal) x0 x4 (ix2 p c))
      + val_main_v5 (F := Ideal) x5 (ix2 p c)) (val_main_call0_v0 (F := Ideal) (ix2 p c)) = _
  rw [v1_at, v2_at, v5_at, relu0_at]
  rfl

/-! ## The second convolution, over the joined channels -/

/-- The 96 joined channels: the ReLU channels, then the path features. -/
theorem v8_at (p : Fin 10000) (k : Fin 96) :
    val_main_v8 (F := Ideal) x0 x1 x2 x3 x4 x5 (ix2 p k)
      = joined (fpath x2) (secR (fa x1) (ftw x0 x3) (ftw x0 x4) (fb x5)) p k := by
  refine (ConcatCols.concat_cols_apply (n := 10000) (a := 32) (b := 64) (val_main_v7 (F := Ideal) x0 x1 x3 x4 x5) x2
    concatenates_S10000x32_S10000x64_S10000x96_d1 p k).trans ?_
  exact congrArg (fun f : Fin 32 → EReal => Fin.addCases (m := 32) (n := 64) (motive := fun _ => EReal) f (fun q => x2 (ix2 p q)) k)
    (funext fun c => v7_at x0 x1 x3 x4 x5 p c)

/-- The joined channels times the first 96 × 7 weight matrix, as one sum. -/
theorem v9_at (p : Fin 10000) (j : Fin 7) :
    val_main_v9 (F := Ideal) x0 x1 x2 x3 x4 x5 x6 (ix2 p j)
      = projWhole (fpath x2) (secR (fa x1) (ftw x0 x3) (ftw x0 x4) (fb x5)) (fw96 x6) p j :=
  (HostDotPlain.dotGeneral_apply (M := 10000) (K := 96) (N := 7) none (val_main_v8 (F := Ideal) x0 x1 x2 x3 x4 x5) x6 (ix2 p j)).trans
    (Finset.sum_congr rfl fun k _ => congrArg (· * x6 (ix2 k j)) (v8_at x0 x1 x2 x3 x4 x5 p k))

/-- The adjacency matrix applied to that projection. -/
theorem v10_at (p : Fin 10000) (j : Fin 7) :
    val_main_v10 (F := Ideal) x0 x1 x2 x3 x4 x5 x6 (ix2 p j)
      = ∑ k, fa x1 p k * projWhole (fpath x2) (secR (fa x1) (ftw x0 x3) (ftw x0 x4) (fb x5)) (fw96 x6) k j :=
  (HostDotPlain.dotGeneral_apply (M := 10000) (K := 10000) (N := 7) none x1 (val_main_v9 (F := Ideal) x0 x1 x2 x3 x4 x5 x6) (ix2 p j)).trans
    (Finset.sum_congr rfl fun k _ => congrArg (x1 (ix2 p k) * ·) (v9_at x0 x1 x2 x3 x4 x5 x6 k j))

/-- The joined channels times the second 96 × 7 weight matrix, as one sum. -/
theorem v11_at (p : Fin 10000) (j : Fin 7) :
    val_main_v11 (F := Ideal) x0 x1 x2 x3 x4 x5 x7 (ix2 p j)
      = projWhole (fpath x2) (secR (fa x1) (ftw x0 x3) (ftw x0 x4) (fb x5)) (fw96 x7) p j :=
  (HostDotPlain.dotGeneral_apply (M := 10000) (K := 96) (N := 7) none (val_main_v8 (F := Ideal) x0 x1 x2 x3 x4 x5) x7 (ix2 p j)).trans
    (Finset.sum_congr rfl fun k _ => congrArg (· * x7 (ix2 k j)) (v8_at x0 x1 x2 x3 x4 x5 p k))

/-- A bias of seven channels, broadcast over the nodes. -/
theorem v14_at (p : Fin 10000) (j : Fin 7) : val_main_v14 (F := Ideal) x8 (ix2 p j) = fb x8 j :=
  (val_main_v14_apply (F := Ideal) x8 (ix2 p j)).trans ((val_main_v13_apply (F := Ideal) x8 _).trans
    (congrArg x8 (funext fun a => by match a with | ⟨0, _⟩ => rfl)))

/-- The second convolution, bias added last. -/
theorem v15_at (p : Fin 10000) (j : Fin 7) :
    val_main_v15 (F := Ideal) x0 x1 x2 x3 x4 x5 x6 x7 x8 (ix2 p j)
      = msR (fa x1) (ftw x0 x3) (ftw x0 x4) (fb x5) (fpath x2) (fw96 x6) (fw96 x7) (fb x8) p j := by
  show (val_main_v10 (F := Ideal) x0 x1 x2 x3 x4 x5 x6 (ix2 p j) + val_main_v11 (F := Ideal) x0 x1 x2 x3 x4 x5 x7 (ix2 p j))
      + val_main_v14 (F := Ideal) x8 (ix2 p j) = _
  rw [v10_at, v11_at, v14_at]
  rfl

/-! ## The main convolution, over the raw features -/

/-- The raw features of a node: its temporal features, then its path features. -/
theorem v16_at (p : Fin 10000) (q : Fin 192) : val_main_v16 (F := Ideal) x0 x2 (ix2 p q) = fx x0 x2 p q :=
  ConcatCols.concat_cols_apply (n := 10000) (a := 128) (b := 64) x0 x2 concatenates_S10000x128_S10000x64_S10000x192_d1 p q

/-- The raw features times the first 192 × 7 weight matrix. -/
theorem v17_at (p : Fin 10000) (j : Fin 7) : val_main_v17 (F := Ideal) x0 x2 x9 (ix2 p j) = fxw x0 x2 x9 p j :=
  (HostDotPlain.dotGeneral_apply (M := 10000) (K := 192) (N := 7) none (val_main_v16 (F := Ideal) x0 x2) x9 (ix2 p j)).trans
    (Finset.sum_congr rfl fun q _ => congrArg (· * x9 (ix2 q j)) (v16_at x0 x2 p q))

/-- The adjacency matrix applied to that product. -/
theorem v18_at (p : Fin 10000) (j : Fin 7) :
    val_main_v18 (F := Ideal) x0 x1 x2 x9 (ix2 p j) = ∑ k, fa x1 p k * fxw x0 x2 x9 k j :=
  (HostDotPlain.dotGeneral_apply (M := 10000) (K := 10000) (N := 7) none x1 (val_main_v17 (F := Ideal) x0 x2 x9) (ix2 p j)).trans
    (Finset.sum_congr rfl fun k _ => congrArg (x1 (ix2 p k) * ·) (v17_at x0 x2 x9 k j))

/-- The raw features times the second 192 × 7 weight matrix. -/
theorem v19_at (p : Fin 10000) (j : Fin 7) : val_main_v19 (F := Ideal) x0 x2 x10 (ix2 p j) = fxw x0 x2 x10 p j :=
  (HostDotPlain.dotGeneral_apply (M := 10000) (K := 192) (N := 7) none (val_main_v16 (F := Ideal) x0 x2) x10 (ix2 p j)).trans
    (Finset.sum_congr rfl fun q _ => congrArg (· * x10 (ix2 q j)) (v16_at x0 x2 p q))

/-- The main convolution's bias, broadcast over the nodes. -/
theorem v22_at (p : Fin 10000) (j : Fin 7) : val_main_v22 (F := Ideal) x11 (ix2 p j) = fb x11 j :=
  (val_main_v22_apply (F := Ideal) x11 (ix2 p j)).trans ((val_main_v21_apply (F := Ideal) x11 _).trans
    (congrArg x11 (funext fun a => by match a with | ⟨0, _⟩ => rfl)))

/-- The main convolution, bias added last. -/
theorem v23_at (p : Fin 10000) (j : Fin 7) :
    val_main_v23 (F := Ideal) x0 x1 x2 x9 x10 x11 (ix2 p j)
      = mainR (fa x1) (fxw x0 x2 x9) (fxw x0 x2 x10) (fb x11) p j := by
  show (val_main_v18 (F := Ideal) x0 x1 x2 x9 (ix2 p j) + val_main_v19 (F := Ideal) x0 x2 x10 (ix2 p j))
      + val_main_v22 (F := Ideal) x11 (ix2 p j) = _
  rw [v18_at, v19_at, v22_at]
  rfl

/-! ## The logits -/

/-- A scalar broadcast over the whole array is that scalar. -/
theorem v24_at (i : S10000x7.Idx) : val_main_v24 (F := Ideal) x13 i = x13 ix0 :=
  (val_main_v24_apply (F := Ideal) x13 i).trans (congrArg x13 (eq_ix0 _))

theorem v26_at (i : S10000x7.Idx) : val_main_v26 (F := Ideal) x12 i = x12 ix0 :=
  (val_main_v26_apply (F := Ideal) x12 i).trans (congrArg x12 (eq_ix0 _))

/-- The constant one half, broadcast over the whole array. -/
theorem v29_at (i : S10000x7.Idx) : val_main_v29 (F := Ideal) i = half :=
  val_main_v29_apply (F := Ideal) i

/-- The logits: one half of the two convolutions' weighted sum. -/
theorem v30_at (p : Fin 10000) (j : Fin 7) :
    val_main_v30 (F := Ideal) x0 x1 x2 x3 x4 x5 x6 x7 x8 x9 x10 x11 x12 x13 (ix2 p j)
      = logitsR x0 x1 x2 x3 x4 x5 x6 x7 x8 x9 x10 x11 x12 x13 p j := by
  show val_main_v29 (F := Ideal) (ix2 p j)
      * (val_main_v24 (F := Ideal) x13 (ix2 p j) * val_main_v23 (F := Ideal) x0 x1 x2 x9 x10 x11 (ix2 p j)
        + val_main_v26 (F := Ideal) x12 (ix2 p j) * val_main_v15 (F := Ideal) x0 x1 x2 x3 x4 x5 x6 x7 x8 (ix2 p j)) = _
  rw [v29_at, v24_at, v23_at, v26_at, v15_at]
  rfl

/-! ## The row softmax -/

/-- Node `p`'s position among the rows, with column `k` put back, is the entry (p, k). -/
theorem lift_row (h : S10000x7.Reduces [1] S10000) (p : Fin 10000) (k : Fin 7) : h.lift (ix1 p) k = ix2 p k :=
  funext fun a => Fin.ext (by match a with | ⟨0, _⟩ => rfl | ⟨1, _⟩ => rfl)

/-- The row maximum of the logits from −∞: the fold of max over the row. -/
theorem v31_at (p : Fin 10000) :
    val_main_v31 (F := Ideal) x0 x1 x2 x3 x4 x5 x6 x7 x8 x9 x10 x11 x12 x13 (ix1 p)
      = (Finset.univ : Finset (Fin 7)).fold max negInf (logitsR x0 x1 x2 x3 x4 x5 x6 x7 x8 x9 x10 x11 x12 x13 p) := by
  refine (Host.reduce_eq_fold_single (FloatOps.maximumf (F := Ideal) (φ := .f32)) (val_main_v30 (F := Ideal) x0 x1 x2 x3 x4 x5 x6 x7 x8 x9 x10 x11 x12 x13)
    (val_main_cst_0 (F := Ideal)) reducesTo_S10000x7_S10000_d1 (by decide) h_S_ (ix1 p)).trans ?_
  refine congrArg (fun f : Fin 7 → EReal => (Finset.univ : Finset (Fin 7)).fold max negInf f) (funext fun k => ?_)
  exact (congrArg (val_main_v30 (F := Ideal) x0 x1 x2 x3 x4 x5 x6 x7 x8 x9 x10 x11 x12 x13) (lift_row _ p k)).trans (v30_at x0 x1 x2 x3 x4 x5 x6 x7 x8 x9 x10 x11 x12 x13 p k)

/-- The constant −∞, broadcast over the nodes. -/
theorem v32_at (i : S10000.Idx) : val_main_v32 (F := Ideal) i = negInf :=
  val_main_v32_apply (F := Ideal) i

/-- The row maximum joined once more with −∞. -/
theorem v33_at (p : Fin 10000) :
    val_main_v33 (F := Ideal) x0 x1 x2 x3 x4 x5 x6 x7 x8 x9 x10 x11 x12 x13 (ix1 p) = rowTop (logitsR x0 x1 x2 x3 x4 x5 x6 x7 x8 x9 x10 x11 x12 x13 p) := by
  show max (val_main_v32 (F := Ideal) (ix1 p)) (val_main_v31 (F := Ideal) x0 x1 x2 x3 x4 x5 x6 x7 x8 x9 x10 x11 x12 x13 (ix1 p)) = _
  rw [v32_at, v31_at]
  rfl

/-- The row maximum, broadcast back over the seven columns. -/
theorem v35_at (p : Fin 10000) (j : Fin 7) :
    val_main_v35 (F := Ideal) x0 x1 x2 x3 x4 x5 x6 x7 x8 x9 x10 x11 x12 x13 (ix2 p j) = rowTop (logitsR x0 x1 x2 x3 x4 x5 x6 x7 x8 x9 x10 x11 x12 x13 p) :=
  (val_main_v35_apply (F := Ideal) x0 x1 x2 x3 x4 x5 x6 x7 x8 x9 x10 x11 x12 x13 (ix2 p j)).trans
    ((val_main_v34_apply (F := Ideal) x0 x1 x2 x3 x4 x5 x6 x7 x8 x9 x10 x11 x12 x13 _).trans
      ((congrArg (val_main_v33 (F := Ideal) x0 x1 x2 x3 x4 x5 x6 x7 x8 x9 x10 x11 x12 x13) (funext fun a => by match a with | ⟨0, _⟩ => rfl)).trans
        (v33_at x0 x1 x2 x3 x4 x5 x6 x7 x8 x9 x10 x11 x12 x13 p)))

/-- The exponential of a logit less its row's maximum. -/
theorem v37_at (p : Fin 10000) (j : Fin 7) :
    val_main_v37 (F := Ideal) x0 x1 x2 x3 x4 x5 x6 x7 x8 x9 x10 x11 x12 x13 (ix2 p j) = Ideal.exp (logitsR x0 x1 x2 x3 x4 x5 x6 x7 x8 x9 x10 x11 x12 x13 p j - rowTop (logitsR x0 x1 x2 x3 x4 x5 x6 x7 x8 x9 x10 x11 x12 x13 p)) := by
  show Ideal.exp (val_main_v30 (F := Ideal) x0 x1 x2 x3 x4 x5 x6 x7 x8 x9 x10 x11 x12 x13 (ix2 p j) - val_main_v35 (F := Ideal) x0 x1 x2 x3 x4 x5 x6 x7 x8 x9 x10 x11 x12 x13 (ix2 p j)) = _
  rw [v30_at, v35_at]

/-- The row sum of those exponentials, started at zero. -/
theorem v38_at (p : Fin 10000) :
    val_main_v38 (F := Ideal) x0 x1 x2 x3 x4 x5 x6 x7 x8 x9 x10 x11 x12 x13 (ix1 p) = ∑ k : Fin 7, Ideal.exp (logitsR x0 x1 x2 x3 x4 x5 x6 x7 x8 x9 x10 x11 x12 x13 p k - rowTop (logitsR x0 x1 x2 x3 x4 x5 x6 x7 x8 x9 x10 x11 x12 x13 p)) := by
  refine (val_main_v38_apply x0 x1 x2 x3 x4 x5 x6 x7 x8 x9 x10 x11 x12 x13 (ix1 p)).trans ?_
  show Ideal.ofBits .f32 0x00000000#32 + _ = _
  rw [Ideal.ofBits_zero_f32, zero_add]
  refine Finset.sum_congr rfl fun k _ => ?_
  exact (congrArg (val_main_v37 (F := Ideal) x0 x1 x2 x3 x4 x5 x6 x7 x8 x9 x10 x11 x12 x13)
    (funext fun a => by match a with | ⟨0, _⟩ => rfl | ⟨1, _⟩ => rfl)).trans (v37_at x0 x1 x2 x3 x4 x5 x6 x7 x8 x9 x10 x11 x12 x13 p k)

/-- The row sum, broadcast back over the seven columns. -/
theorem v40_at (p : Fin 10000) (j : Fin 7) :
    val_main_v40 (F := Ideal) x0 x1 x2 x3 x4 x5 x6 x7 x8 x9 x10 x11 x12 x13 (ix2 p j) = ∑ k : Fin 7, Ideal.exp (logitsR x0 x1 x2 x3 x4 x5 x6 x7 x8 x9 x10 x11 x12 x13 p k - rowTop (logitsR x0 x1 x2 x3 x4 x5 x6 x7 x8 x9 x10 x11 x12 x13 p)) :=
  (val_main_v40_apply (F := Ideal) x0 x1 x2 x3 x4 x5 x6 x7 x8 x9 x10 x11 x12 x13 (ix2 p j)).trans
    ((val_main_v39_apply (F := Ideal) x0 x1 x2 x3 x4 x5 x6 x7 x8 x9 x10 x11 x12 x13 _).trans
      ((congrArg (val_main_v38 (F := Ideal) x0 x1 x2 x3 x4 x5 x6 x7 x8 x9 x10 x11 x12 x13) (funext fun a => by match a with | ⟨0, _⟩ => rfl)).trans
        (v38_at x0 x1 x2 x3 x4 x5 x6 x7 x8 x9 x10 x11 x12 x13 p)))

/-- The result at an entry: the softmax of the node's row of logits. -/
theorem v41_at (p : Fin 10000) (j : Fin 7) :
    val_main_v41 (F := Ideal) x0 x1 x2 x3 x4 x5 x6 x7 x8 x9 x10 x11 x12 x13 (ix2 p j) = smx (logitsR x0 x1 x2 x3 x4 x5 x6 x7 x8 x9 x10 x11 x12 x13 p) j := by
  show Ideal.div (val_main_v37 (F := Ideal) x0 x1 x2 x3 x4 x5 x6 x7 x8 x9 x10 x11 x12 x13 (ix2 p j)) (val_main_v40 (F := Ideal) x0 x1 x2 x3 x4 x5 x6 x7 x8 x9 x10 x11 x12 x13 (ix2 p j)) = _
  rw [v37_at, v40_at]
  rfl

/-! ## The whole result -/

/-- The reference program's result array is the row softmax of the logits in the second grouping. -/
theorem ref_value (m : (ℓ : Loc nD τ sig) → Buf (Elt Ideal) ℓ) (c : Dev nD) :
    Cert.ReferenceIdeal.Value.res_main_v41 (F := Ideal) m c
      = Cert.Arma.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (val_main_v41_eq (F := Ideal) m c).trans ?_
  funext i
  obtain ⟨p, j, rfl⟩ : ∃ (p : Fin 10000) (j : Fin 7), i = ix2 p j := ⟨i 0, i 1, eq_ix2 i⟩
  exact v41_at _ _ _ _ _ _ _ _ _ _ _ _ _ _ p j

end Cert.ReferenceIdeal.RefValue

end
-- ==== Proof.lean ====
/-
  A Pallas implementation of a two-step ARMA graph network against its jnp reference, equal as extended reals.

  Both programs compute, for 10000 nodes with adjacency matrix `A`, the row softmax over seven classes of
  `½ · (v₂ · main + v₁ · main_sec)`, where `main = A · (X Wma) + X Wmb + bm` on the raw features `X` (temporal and path
  features joined), `sec = relu (A · (T Ws1) + T Ws2 + bs)` on the temporal features, and
  `main_sec = A · (S Wm2a) + S Wm2b + bm2` on `S`, the 32 channels of `sec` joined with the 64 path features.

  The kernel streams `A` twice in blocks of 200 rows.  Its first pass multiplies a block of `A` by the 39 columns
  `[T Ws1 | X Wma]`, adds `[T Ws2 + bs | X Wmb + bm]`, cuts the first 32 columns at zero, and projects them together
  with the block's path features through the 32-row and 64-row parts of `Wm2a` and `Wm2b`; its second pass multiplies
  the block of `A` by the first projection, adds the second, mixes and takes the softmax.  So the kernel adds each
  bias before the product with `A` is added, where the reference adds it after, and takes each 96-term contraction
  as a 32-term sum plus a 64-term sum: associativity of addition and the splitting of a finite sum, both valid on
  the extended reals without any finiteness (Proof/Spec.lean).

  The pieces: Proof/KernelRun.lean (the kernel's run with its result named), Proof/Pass1Point.lean,
  Proof/Pass2Point.lean (each pass's arithmetic at an entry of a block), Proof/Pass1Array.lean, Proof/Pass2Array.lean
  (each pass's result as one function of whole arrays), Proof/HostTerms.lean and Proof/KernelValue.lean (the host
  operations around the passes, and the result array as a term of the launch arrays), Proof/KernelMath.lean (that
  term is the specification in the kernel's grouping), Proof/RefValue.lean (the reference's result is the
  specification in the reference's grouping), Proof/Arrays.lean (the two groupings agree).
-/
import proofs.«153962_j35545149341868_2_alg».proof.Defs
import proofs.«153962_j35545149341868_2_alg».proof.Proof.Gen.Kernel
import proofs.«153962_j35545149341868_2_alg».proof.Proof.Gen.Kernel.Skeleton
import proofs.«153962_j35545149341868_2_alg».proof.Proof.Gen.Kernel.Launch
import proofs.«153962_j35545149341868_2_alg».proof.Proof.Gen.Kernel.Points
import proofs.«153962_j35545149341868_2_alg».proof.Proof.Gen.Kernel.Frame
import proofs.«153962_j35545149341868_2_alg».proof.Proof.Gen.KernelIdeal
import proofs.«153962_j35545149341868_2_alg».proof.Proof.Gen.KernelIdeal.Skeleton
import proofs.«153962_j35545149341868_2_alg».proof.Proof.Gen.KernelIdeal.Launch
import proofs.«153962_j35545149341868_2_alg».proof.Proof.Gen.KernelIdeal.Points
import proofs.«153962_j35545149341868_2_alg».proof.Proof.Gen.KernelIdeal.Frame
import proofs.«153962_j35545149341868_2_alg».proof.Proof.Gen.ReferenceIdeal
import proofs.«153962_j35545149341868_2_alg».proof.Proof.Gen.ReferenceIdeal.Run
import proofs.«153962_j35545149341868_2_alg».proof.Proof.Gen.ReferenceIdeal.Read
import proofs.«153962_j35545149341868_2_alg».proof.Proof.Gen.Pre_finite_inputs
import proofs.«153962_j35545149341868_2_alg».proof.Proof.Arrays
import proofs.«153962_j35545149341868_2_alg».proof.Proof.KernelRun
import proofs.«153962_j35545149341868_2_alg».proof.Proof.KernelValue
import proofs.«153962_j35545149341868_2_alg».proof.Proof.KernelMath
import proofs.«153962_j35545149341868_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the fourteen arguments both programs end with the same result array: the
    specification of Proof/Arrays.lean, reached by the kernel in its grouping of the sums and by the reference in
    its own. -/
theorem algebraic : Cert.algebraic_KernelIdeal_ReferenceIdeal := by
  intro m ρ m' ρ' _ hagree
  refine ⟨fun c => Cert.Arma.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun _ h c => ⟨(h c).1.trans ?_, (h c).2⟩)
      (Cert.KernelIdeal.Whole.run_result (F := Ideal) m ρ)
    exact (Cert.KernelIdeal.KernelValue.W4_result m ρ c).trans (Cert.KernelIdeal.KernelMath.kernel_math _ _ _ _ _ _ _ _ _ _ _ _ _ _)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_value, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.Arma.outK_eq_outR _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
